-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg8 : FVec F S16x16 .f32) (main_arg9 : FVec F S16 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x16 .f32) (main_arg9 : FVec F S16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x6400000 32) (main_arg2 : FVec F S512x16 .f32) (main_arg3 : FVec F S16 .f32) (main_arg4 : FVec F S16x32 .f32) (main_arg5 : FVec F S32 .f32) (main_arg6 : FVec F S32x16 .f32) (main_arg7 : FVec F S16 .f32) (main_arg8 : FVec F S16x16 .f32) (main_arg9 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x16 : Shape := ⟨2, ![16, 16]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S5000x512 : Shape := ⟨2, ![5000, 512]⟩
abbrev S5000x16 : Shape := ⟨2, ![5000, 16]⟩
abbrev S6500000x16 : Shape := ⟨2, ![6500000, 16]⟩
abbrev S1x16 : Shape := ⟨2, ![1, 16]⟩
abbrev S100000x32 : Shape := ⟨2, ![100000, 32]⟩
abbrev S5000x32 : Shape := ⟨2, ![5000, 32]⟩
abbrev S6500000x32 : Shape := ⟨2, ![6500000, 32]⟩
abbrev S1x32 : Shape := ⟨2, ![1, 32]⟩

abbrev nBuf : Space → Nat
  | .hbm => 110
  | .vmem => 40
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S100000x16, .f32⟩
  | .hbm, ⟨51, _⟩ => ⟨S_, .i32⟩
  | .hbm, ⟨52, _⟩ => ⟨S6500000, .i32⟩
  | .hbm, ⟨53, _⟩ => ⟨S6500000, .i1⟩
  | .hbm, ⟨54, _⟩ => ⟨S_, .i32⟩
  | .hbm, ⟨55, _⟩ => ⟨S6500000, .i32⟩
  | .hbm, ⟨56, _⟩ => ⟨S6500000, .i32⟩
  | .hbm, ⟨57, _⟩ => ⟨S6500000, .i32⟩
  | .hbm, ⟨58, _⟩ => ⟨S6500000x1, .i32⟩
  | .hbm, ⟨59, _⟩ => ⟨S6500000x16, .f32⟩
  | .hbm, ⟨60, _⟩ => ⟨S6500000x1, .f32⟩
  | .hbm, ⟨61, _⟩ => ⟨S6500000x16, .f32⟩
  | .hbm, ⟨62, _⟩ => ⟨S6500000x16, .f32⟩
  | .hbm, ⟨63, _⟩ => ⟨S_, .f32⟩
  | .hbm, ⟨64, _⟩ => ⟨S100000x16, .f32⟩
  | .hbm, ⟨65, _⟩ => ⟨S6500000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x32, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x32, .f32⟩
  | .hbm, ⟨79, _⟩ => ⟨S6500000x1, .f32⟩
  | .hbm, ⟨80, _⟩ => ⟨S6500000x32, .f32⟩
  | .hbm, ⟨81, _⟩ => ⟨S6500000x32, .f32⟩
  | .hbm, ⟨82, _⟩ => ⟨S_, .f32⟩
  | .hbm, ⟨83, _⟩ => ⟨S100000x32, .f32⟩
  | .hbm, ⟨84, _⟩ => ⟨S6500000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x16, .f32⟩
  | .hbm, ⟨89, _⟩ => ⟨S_, .i32⟩
  | .hbm, ⟨90, _⟩ => ⟨S6500000, .i32⟩
  | .hbm, ⟨91, _⟩ => ⟨S6500000, .i1⟩
  | .hbm, ⟨92, _⟩ => ⟨S_, .i32⟩
  | .hbm, ⟨93, _⟩ => ⟨S6500000, .i32⟩
  | .hbm, ⟨94, _⟩ => ⟨S6500000, .i32⟩
  | .hbm, ⟨95, _⟩ => ⟨S6500000, .i32⟩
  | .hbm, ⟨96, _⟩ => ⟨S6500000x1, .i32⟩
  | .hbm, ⟨97, _⟩ => ⟨S6500000x16, .f32⟩
  | .hbm, ⟨98, _⟩ => ⟨S6500000x1, .f32⟩
  | .hbm, ⟨99, _⟩ => ⟨S6500000x16, .f32⟩
  | .hbm, ⟨100, _⟩ => ⟨S6500000x16, .f32⟩
  | .hbm, ⟨101, _⟩ => ⟨S_, .f32⟩
  | .hbm, ⟨102, _⟩ => ⟨S100000x16, .f32⟩
  | .hbm, ⟨103, _⟩ => ⟨S6500000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | .hbm, ⟨108, _⟩ => ⟨S1x16, .f32⟩
  | .hbm, ⟨109, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S16x16, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S1x16, .f32⟩
  | .local _ .vmem, ⟨38, _⟩ => ⟨S5000x16, .f32⟩
  | .local _ .vmem, ⟨39, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S16x16_S16x16_0_0 : ∀ a, (![0, 0] : Fin 2 → Nat) a + S16x16.size a ≤ S16x16.size a
  h_S16x16 : 0 < S16x16.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x512_S512x16_S5000x16_1_0_0_1_n_n_wf : DotDims.WF S5000x512 S512x16 S5000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S5000x16_S16x32_S5000x32_1_0_0_1_n_n_wf : DotDims.WF S5000x16 S16x32 S5000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S5000x32_S32x16_S5000x16_1_0_0_1_n_n_wf : DotDims.WF S5000x32 S32x16 S5000x16 [1] [0] [0] [1] [] []
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S100000x16.size a
  hwx6_0 : ∀ i : grid6.Coords, EltTy.bits .f32 = 32 ∨ (Rect.block (s := S100000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x16.size a ≤ S16x16.size a
  hwx6_1 : ∀ i : grid6.Coords, EltTy.bits .f32 = 32 ∨ (Rect.block (s := S16x16) S16x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x16.size a ≤ S100000x16.size a
  hwx6_2 : ∀ i : grid6.Coords, EltTy.bits .f32 = 32 ∨ (Rect.block (s := S100000x16) S5000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x16.size a ≤ S1x16.size a
  hwx7_1 : ∀ i : grid7.Coords, EltTy.bits .f32 = 32 ∨ (Rect.block (s := S1x16) S1x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S100000x16.size a
  hwx7_2 : ∀ i : grid7.Coords, EltTy.bits .f32 = 32 ∨ (Rect.block (s := S100000x16) S5000x16.size (cc7_transform_2 i) (hinb7_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S16x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S1x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x16 : Shape := ⟨2, ![16, 16]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x32 : Shape := ⟨2, ![100000, 32]⟩
abbrev S6500000x32 : Shape := ⟨2, ![6500000, 32]⟩
abbrev S1x32 : Shape := ⟨2, ![1, 32]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S100000x16, .f32⟩
  | .hbm, ⟨51, _⟩ => ⟨S_, .i32⟩
  | .hbm, ⟨52, _⟩ => ⟨S6500000, .i32⟩
  | .hbm, ⟨53, _⟩ => ⟨S6500000, .i1⟩
  | .hbm, ⟨54, _⟩ => ⟨S_, .i32⟩
  | .hbm, ⟨55, _⟩ => ⟨S6500000, .i32⟩
  | .hbm, ⟨56, _⟩ => ⟨S6500000, .i32⟩
  | .hbm, ⟨57, _⟩ => ⟨S6500000, .i32⟩
  | .hbm, ⟨58, _⟩ => ⟨S6500000x1, .i32⟩
  | .hbm, ⟨59, _⟩ => ⟨S6500000x16, .f32⟩
  | .hbm, ⟨60, _⟩ => ⟨S6500000x1, .f32⟩
  | .hbm, ⟨61, _⟩ => ⟨S6500000x16, .f32⟩
  | .hbm, ⟨62, _⟩ => ⟨S6500000x16, .f32⟩
  | .hbm, ⟨63, _⟩ => ⟨S_, .f32⟩
  | .hbm, ⟨64, _⟩ => ⟨S100000x16, .f32⟩
  | .hbm, ⟨65, _⟩ => ⟨S6500000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000x16, .f32⟩
  | .hbm, ⟨72, _⟩ => ⟨S100000x16, .f32⟩
  | .hbm, ⟨73, _⟩ => ⟨S100000x32, .f32⟩
  | .hbm, ⟨74, _⟩ => ⟨S_, .i32⟩
  | .hbm, ⟨75, _⟩ => ⟨S6500000, .i32⟩
  | .hbm, ⟨76, _⟩ => ⟨S6500000, .i1⟩
  | .hbm, ⟨77, _⟩ => ⟨S_, .i32⟩
  | .hbm, ⟨78, _⟩ => ⟨S6500000, .i32⟩
  | .hbm, ⟨79, _⟩ => ⟨S6500000, .i32⟩
  | .hbm, ⟨80, _⟩ => ⟨S6500000, .i32⟩
  | .hbm, ⟨81, _⟩ => ⟨S6500000x1, .i32⟩
  | .hbm, ⟨82, _⟩ => ⟨S6500000x32, .f32⟩
  | .hbm, ⟨83, _⟩ => ⟨S6500000x1, .f32⟩
  | .hbm, ⟨84, _⟩ => ⟨S6500000x32, .f32⟩
  | .hbm, ⟨85, _⟩ => ⟨S6500000x32, .f32⟩
  | .hbm, ⟨86, _⟩ => ⟨S_, .f32⟩
  | .hbm, ⟨87, _⟩ => ⟨S100000x32, .f32⟩
  | .hbm, ⟨88, _⟩ => ⟨S6500000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x16, .f32⟩
  | .hbm, ⟨97, _⟩ => ⟨S_, .i32⟩
  | .hbm, ⟨98, _⟩ => ⟨S6500000, .i32⟩
  | .hbm, ⟨99, _⟩ => ⟨S6500000, .i1⟩
  | .hbm, ⟨100, _⟩ => ⟨S_, .i32⟩
  | .hbm, ⟨101, _⟩ => ⟨S6500000, .i32⟩
  | .hbm, ⟨102, _⟩ => ⟨S6500000, .i32⟩
  | .hbm, ⟨103, _⟩ => ⟨S6500000, .i32⟩
  | .hbm, ⟨104, _⟩ => ⟨S6500000x1, .i32⟩
  | .hbm, ⟨105, _⟩ => ⟨S6500000x16, .f32⟩
  | .hbm, ⟨106, _⟩ => ⟨S6500000x1, .f32⟩
  | .hbm, ⟨107, _⟩ => ⟨S6500000x16, .f32⟩
  | .hbm, ⟨108, _⟩ => ⟨S6500000x16, .f32⟩
  | .hbm, ⟨109, _⟩ => ⟨S_, .f32⟩
  | .hbm, ⟨110, _⟩ => ⟨S100000x16, .f32⟩
  | .hbm, ⟨111, _⟩ => ⟨S6500000x1, .i32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .hbm, ⟨116, _⟩ => ⟨S_, .f32⟩
  | .hbm, ⟨117, _⟩ => ⟨S100000x16, .f32⟩
  | .hbm, ⟨118, _⟩ => ⟨S100000x16, .f32⟩
  | .hbm, ⟨119, _⟩ => ⟨S100000x16, .f32⟩
  | .hbm, ⟨120, _⟩ => ⟨S1x16, .f32⟩
  | .hbm, ⟨121, _⟩ => ⟨S100000x16, .f32⟩
  | .hbm, ⟨122, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x512_S512x16_S100000x16_1_0_0_1_n_n_wf : DotDims.WF S100000x512 S512x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x32_S100000x32_1_0_0_1_n_n_wf : DotDims.WF S100000x16 S16x32 S100000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S100000x32_S32x16_S100000x16_1_0_0_1_n_n_wf : DotDims.WF S100000x32 S32x16 S100000x16 [1] [0] [0] [1] [] []
  dot_S100000x16_S16x16_S100000x16_1_0_0_1_n_n_wf : DotDims.WF S100000x16 S16x16 S100000x16 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel's run, with its two results named.

  @main is fifteen segments: seven stretches of host operations and eight pipelined regions. The buffers' contents at
  each segment boundary are a fold from the launch memory (`W0` … `W15`): a host stretch applies its operations, a
  region replaces its three arrays by what its write-backs leave. Every weakly fair execution terminates, without a
  fault, with every unscoped buffer at its `W15` contents; here that is read at the two result buffers — the output
  `main_v80` and the last hidden layer `main_v77` — and at the ten arguments, which end as launched.
-/
import proofs.«168405_j85899346397_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the output and the last hidden layer at what the fold of the
    segments leaves there, and the arguments unchanged. -/
theorem run : θ_run defs (onTc (τ := τ) (main (F := F))) ⟨m, fun _ => 0, ρ⟩ (fun r => ∀ c : Dev nD,
      r.2.mem ((c.tc : Thread nD τ).loc main_v80) = W15 m ρ c (Proc.devRef .tc main_v80)
      ∧ r.2.mem ((c.tc : Thread nD τ).loc main_v77) = W15 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v80 (by decide)),
       h c _ (mem_uc main_v77 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibBiasRect.lean ====
/-
  A bias row added to every row of an array, then rectified (`relu (a + b)`), on the extended reals, for any extents.

  `biasRect a b` is the array whose entry `(p, q)` is `max (a[p,q] + b[0,q]) 0` for a one-row bias `b : [1, c]`;
  `rectified a b` is the same with the bias a vector `b : [c]`. A block of rows of `biasRect a b` is `biasRect` of that
  block of `a` with the same bias row (`biasRect_congr`). The vector form is reached from the row form when the row
  is a recast vector (`biasRect_cast`), and it is what the host spells as a `maximum` of a sum with the vector spread
  `[c] → [1, c] → [n, c]` against a spread zero (`host_rectified`). The zero stays the word `0x00000000` read as a float.
-/
import Idealize.ShloMosaic.Lib.ValueIdx
import Idealize.ShloMosaic.Lib.ValueLayout
import Idealize.ShloMosaic.PureOps.Ideal.Laws
import proofs.«168405_j85899346397_1_alg».proof.Proof.LibBcastChain

noncomputable section

namespace Cert.Lib.BiasRect

open Idealize.ShloMosaic Idealize.ShloMosaic.ValueIdx

/-- A one-row bias added to every row, then the maximum with zero: entry `(p, q)` is `max (a[p,q] + b[0,q]) 0`. -/
def biasRect {n c : ℕ} (a : (⟨2, ![n, c]⟩ : Shape).Idx → EReal) (b : (⟨2, ![1, c]⟩ : Shape).Idx → EReal) :
    (⟨2, ![n, c]⟩ : Shape).Idx → EReal :=
  fun j => max (a j + b (ix2 (0 : Fin 1) (j 1))) (Ideal.ofBits .f32 0x00000000#32)

/-- The same with the bias a vector: entry `(p, q)` is `max (a[p,q] + b[q]) 0`. -/
def rectified {n c : ℕ} (a : (⟨2, ![n, c]⟩ : Shape).Idx → EReal) (b : (⟨1, ![c]⟩ : Shape).Idx → EReal) :
    (⟨2, ![n, c]⟩ : Shape).Idx → EReal :=
  fun j => max (a j + b (ix1 (j 1))) (Ideal.ofBits .f32 0x00000000#32)

/-- Two such arrays agree at two indices when the entries read there agree: the array's entry and the bias entry of
    the same column. In particular a block of rows of `biasRect a b` is `biasRect` of the block with the same bias. -/
theorem biasRect_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRect a' b' j' = biasRect a b j := by
  unfold biasRect
  rw [ha, hb]

/-- With the bias row a recast vector the row form is the vector form. -/
theorem biasRect_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRect a (shapeCast ⟨2, ![1, c]⟩ b h) = rectified a b := by
  funext j
  unfold biasRect rectified
  rw [shapeCast_a_1a_apply b h (0 : Fin 1) (j 1)]

/-- The host's spelling: the vector spread over the rows by two `broadcast_in_dim`s, added, and the maximum taken with
    a zero spread from a scalar. -/
theorem host_rectified {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 (broadcastInDim ⟨2, ![1, c]⟩ ![1] h3 b)))
      (broadcastInDim ⟨2, ![n, c]⟩ ![] h0 (constant (F := Ideal) ⟨0, ![]⟩ .f32 0x00000000#32)) = rectified a b := by
  funext j
  obtain ⟨p, q, rfl⟩ : ∃ (p : Fin n) (q : Fin c), j = ix2 p q := ⟨j 0, j 1, eq_ix2 j⟩
  rw [maximumf_apply, addf_apply, Cert.Lib.BcastChain.overRows_apply b h3 h4 p q,
    Cert.Lib.BcastChain.overAll_apply _ _ h0 (ix2 p q), constant_apply]
  rfl

end Cert.Lib.BiasRect

end
-- ==== Proof.LibBiasRow.lean ====
/-
  A bias row added to every row of an array (`a + b`, no rectification), on the extended reals, for any extents.

  `biasRow a b` is the array whose entry `(p, q)` is `a[p,q] + b[0,q]` for a one-row bias `b : [1, c]`;
  `biased a b` is the same with the bias a vector `b : [c]`. A block of rows of `biasRow a b` is `biasRow` of that
  block of `a` with the same bias row (`biasRow_congr`). The vector form is reached from the row form when the row
  is a recast vector (`biasRow_cast`), and it is what the host spells as a sum with the vector spread
  `[c] → [1, c] → [n, c]` (`host_biased`).
-/
import Idealize.ShloMosaic.Lib.ValueIdx
import Idealize.ShloMosaic.Lib.ValueLayout
import Idealize.ShloMosaic.PureOps.Ideal.Laws
import proofs.«168405_j85899346397_1_alg».proof.Proof.LibBcastChain

noncomputable section

namespace Cert.Lib.BiasRow

open Idealize.ShloMosaic Idealize.ShloMosaic.ValueIdx

/-- A one-row bias added to every row: entry `(p, q)` is `a[p,q] + b[0,q]`. -/
def biasRow {n c : ℕ} (a : (⟨2, ![n, c]⟩ : Shape).Idx → EReal) (b : (⟨2, ![1, c]⟩ : Shape).Idx → EReal) :
    (⟨2, ![n, c]⟩ : Shape).Idx → EReal :=
  fun j => a j + b (ix2 (0 : Fin 1) (j 1))

/-- The same with the bias a vector: entry `(p, q)` is `a[p,q] + b[q]`. -/
def biased {n c : ℕ} (a : (⟨2, ![n, c]⟩ : Shape).Idx → EReal) (b : (⟨1, ![c]⟩ : Shape).Idx → EReal) :
    (⟨2, ![n, c]⟩ : Shape).Idx → EReal :=
  fun j => a j + b (ix1 (j 1))

theorem biasRow_apply {n c : ℕ} (a : (⟨2, ![n, c]⟩ : Shape).Idx → EReal) (b : (⟨2, ![1, c]⟩ : Shape).Idx → EReal)
    (j : (⟨2, ![n, c]⟩ : Shape).Idx) : biasRow a b j = a j + b (ix2 (0 : Fin 1) (j 1)) := rfl

/-- Two such arrays agree at two indices when the entries read there agree: the array's entry and the bias entry of
    the same column. In particular a block of rows of `biasRow a b` is `biasRow` of the block with the same bias. -/
theorem biasRow_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRow a' b' j' = biasRow a b j := by
  unfold biasRow
  rw [ha, hb]

/-- With the bias row a recast vector the row form is the vector form. -/
theorem biasRow_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRow a (shapeCast ⟨2, ![1, c]⟩ b h) = biased a b := by
  funext j
  unfold biasRow biased
  rw [shapeCast_a_1a_apply b h (0 : Fin 1) (j 1)]

/-- The host's spelling: the vector spread over the rows by two `broadcast_in_dim`s, added. -/
theorem host_biased {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1]) :
    addf a (broadcastInDim ⟨2, ![n, c]⟩ ![0, 1] h4 (broadcastInDim ⟨2, ![1, c]⟩ ![1] h3 b)) = biased a b := by
  funext j
  obtain ⟨p, q, rfl⟩ : ∃ (p : Fin n) (q : Fin c), j = ix2 p q := ⟨j 0, j 1, eq_ix2 j⟩
  rw [addf_apply, Cert.Lib.BcastChain.overRows_apply b h3 h4 p q]
  rfl

end Cert.Lib.BiasRow

end
-- ==== Proof.LibBlockBodies.lean ====
/-
  Three block bodies on the extended reals, for any extents.

  A block of a dense layer computed on the matrix unit: both operands narrowed to bf16 (at the exact instance a change
  of float format is the identity), multiplied into a zero accumulator — entry `(p, b)` is `∑ k, x[p,k] · w[k,b]`,
  the product `rowsByCols x w` of the two blocks, whether or not the left block is first recast to its own shape.
  A block plus a one-row bias spread over its rows, then the maximum with a splat zero: entry `(p, q)` is
  `max (x[p,q] + b[0,q]) 0`, which is `biasRect x b`; without the maximum it is `biasRow x b`.
-/
import Idealize.ShloMosaic.Lib.ValueIdx
import Idealize.ShloMosaic.Lib.ValueLayout
import Idealize.ShloMosaic.Lib.Pipeline.Value
import Idealize.ShloMosaic.PureOps.Ideal.Laws
import proofs.«168405_j85899346397_1_alg».proof.Proof.LibPlainDot
import proofs.«168405_j85899346397_1_alg».proof.Proof.LibBiasRect
import proofs.«168405_j85899346397_1_alg».proof.Proof.LibBiasRow
import proofs.«168405_j85899346397_1_alg».proof.Proof.LibBcastChain

noncomputable section

namespace Cert.Lib.BlockBodies

open Idealize.ShloMosaic Idealize.ShloMosaic.ValueIdx Cert.Lib.PlainDot Cert.Lib.BiasRect Cert.Lib.BiasRow

/-- Two f32 blocks narrowed to bf16 and multiplied into the zero accumulator: the product of the blocks. -/
theorem mxu_product {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (hx : FTy.bf16.bits < FTy.f32.bits) (hw : FTy.bf16.bits < FTy.f32.bits) :
    matmul d none (truncf .bf16 x hx) (truncf .bf16 w hw) (constant (F := Ideal) ⟨2, ![M, N]⟩ .f32 0x00000000#32)
      = rowsByCols x w :=
  matmul_zero_eq d hd none (truncf .bf16 x hx) (truncf .bf16 w hw)

/-- The same with the left block first recast to its own shape. -/
theorem mxu_product_recast {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (hs : (⟨2, ![M, K]⟩ : Shape).ShapeCasts ⟨2, ![M, K]⟩)
    (hx : FTy.bf16.bits < FTy.f32.bits) (hw : FTy.bf16.bits < FTy.f32.bits) :
    matmul d none (truncf .bf16 (shapeCast ⟨2, ![M, K]⟩ x hs) hx) (truncf .bf16 w hw)
        (constant (F := Ideal) ⟨2, ![M, N]⟩ .f32 0x00000000#32)
      = rowsByCols x w := by
  rw [shapeCast_self x hs]
  exact mxu_product d hd x w hx hw

/-- The one-row bias spread over an `[n, c]` block reads, at `(p, q)`, the bias entry `(0, q)`. -/
theorem spread_row_apply {n c : ℕ} (b : (⟨2, ![1, c]⟩ : Shape).Idx → EReal)
    (hb : (⟨2, ![1, c]⟩ : Shape).Broadcasts ⟨2, ![n, c]⟩) (p : Fin n) (q : Fin c) :
    broadcastTo ⟨2, ![n, c]⟩ b hb (ix2 p q) = b (ix2 (0 : Fin 1) q) :=
  broadcastTo_apply b hb (ix2 p q) (ix2 (0 : Fin 1) q) (fun a => by
    match a with
    | ⟨0, _⟩ => show 0 = if (1 : ℕ) = 1 then 0 else _; rw [if_pos rfl]
    | ⟨1, _⟩ =>
      show q.val = if c = 1 then 0 else q.val
      split
      · have := q.isLt; omega
      · rfl)

/-- A block plus the spread bias row, then the maximum with a splat zero: `biasRect` of the block and the row. -/
theorem rect_block {n c : ℕ} (x : FVec Ideal ⟨2, ![n, c]⟩ .f32) (b : FVec Ideal ⟨2, ![1, c]⟩ .f32)
    (hx : (⟨2, ![n, c]⟩ : Shape).ShapeCasts ⟨2, ![n, c]⟩) (hr : (⟨2, ![1, c]⟩ : Shape).ShapeCasts ⟨2, ![1, c]⟩)
    (hb : (⟨2, ![1, c]⟩ : Shape).Broadcasts ⟨2, ![n, c]⟩) :
    maximumf (addf (shapeCast ⟨2, ![n, c]⟩ x hx) (broadcastTo ⟨2, ![n, c]⟩ (shapeCast ⟨2, ![1, c]⟩ b hr) hb))
        (broadcast ⟨2, ![n, c]⟩ (Scalar.ofBits (F := Ideal) .f32 0x00000000#32))
      = biasRect x b := by
  funext j
  obtain ⟨p, q, rfl⟩ : ∃ (p : Fin n) (q : Fin c), j = ix2 p q := ⟨j 0, j 1, eq_ix2 j⟩
  rw [maximumf_apply, addf_apply, shapeCast_self x hx, shapeCast_self b hr, spread_row_apply b hb p q, broadcast_apply]
  rfl

/-- A block plus the spread bias row: `biasRow` of the block and the row. -/
theorem row_block {n c : ℕ} (x : FVec Ideal ⟨2, ![n, c]⟩ .f32) (b : FVec Ideal ⟨2, ![1, c]⟩ .f32)
    (hx : (⟨2, ![n, c]⟩ : Shape).ShapeCasts ⟨2, ![n, c]⟩) (hr : (⟨2, ![1, c]⟩ : Shape).ShapeCasts ⟨2, ![1, c]⟩)
    (hb : (⟨2, ![1, c]⟩ : Shape).Broadcasts ⟨2, ![n, c]⟩) :
    addf (shapeCast ⟨2, ![n, c]⟩ x hx) (broadcastTo ⟨2, ![n, c]⟩ (shapeCast ⟨2, ![1, c]⟩ b hr) hb) = biasRow x b := by
  funext j
  obtain ⟨p, q, rfl⟩ : ∃ (p : Fin n) (q : Fin c), j = ix2 p q := ⟨j 0, j 1, eq_ix2 j⟩
  rw [addf_apply, shapeCast_self x hx, shapeCast_self b hr, spread_row_apply b hb p q]
  rfl

/-! ## The host's spellings with the bias already a one-row array -/

/-- A one-row array spread over `[n, c]` by `broadcast_in_dim` (dims = [0, 1]) reads, at `(p, q)`, its entry `(0, q)`. -/
theorem spread_row_inDim_apply {α : Type} {n c : ℕ} (b : (⟨2, ![1, c]⟩ : Shape).Idx → α)
    (h4 : (⟨2, ![1, c]⟩ : Shape).BroadcastsInDim ⟨2, ![n, c]⟩ ![0, 1]) (p : Fin n) (q : Fin c) :
    broadcastInDim ⟨2, ![n, c]⟩ ![0, 1] h4 b (ix2 p q) = b (ix2 (0 : Fin 1) q) :=
  broadcastInDim_apply ![0, 1] h4 b (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)

/-- The host's sum of an array with a spread one-row bias, then the maximum with a spread scalar zero, is `biasRect`. -/
theorem host_rect_row {n c : ℕ} (a : FVec Ideal ⟨2, ![n, c]⟩ .f32) (b : FVec Ideal ⟨2, ![1, c]⟩ .f32)
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 b))
      (broadcastInDim ⟨2, ![n, c]⟩ ![] h0 (constant (F := Ideal) ⟨0, ![]⟩ .f32 0x00000000#32)) = biasRect a b := by
  funext j
  obtain ⟨p, q, rfl⟩ : ∃ (p : Fin n) (q : Fin c), j = ix2 p q := ⟨j 0, j 1, eq_ix2 j⟩
  rw [maximumf_apply, addf_apply, spread_row_inDim_apply b h4 p q,
    Cert.Lib.BcastChain.overAll_apply _ _ h0 (ix2 p q), constant_apply]
  rfl

/-- The host's sum of an array with a spread one-row bias is `biasRow`. -/
theorem host_row_row {n c : ℕ} (a : FVec Ideal ⟨2, ![n, c]⟩ .f32) (b : FVec Ideal ⟨2, ![1, c]⟩ .f32)
    (h4 : (⟨2, ![1, c]⟩ : Shape).BroadcastsInDim ⟨2, ![n, c]⟩ ![0, 1]) :
    addf a (broadcastInDim ⟨2, ![n, c]⟩ ![0, 1] h4 b) = biasRow a b := by
  funext j
  obtain ⟨p, q, rfl⟩ : ∃ (p : Fin n) (q : Fin c), j = ix2 p q := ⟨j 0, j 1, eq_ix2 j⟩
  rw [addf_apply, spread_row_inDim_apply b h4 p q]
  rfl

/-- A vector recast to one row is the vector spread into one row (dims = [1]): both read, at `(0, q)`, its entry `q`. -/
theorem recast_eq_spread {α : Type} {c : ℕ} (b : (⟨1, ![c]⟩ : Shape).Idx → α)
    (h : (⟨1, ![c]⟩ : Shape).ShapeCasts ⟨2, ![1, c]⟩) (h3 : (⟨1, ![c]⟩ : Shape).BroadcastsInDim ⟨2, ![1, c]⟩ ![1]) :
    shapeCast ⟨2, ![1, c]⟩ b h = broadcastInDim ⟨2, ![1, c]⟩ ![1] h3 b := by
  funext j
  obtain ⟨u, q, rfl⟩ : ∃ (u : Fin 1) (q : Fin c), j = ix2 u q := ⟨j 0, j 1, eq_ix2 j⟩
  rw [shapeCast_a_1a_apply b h u q]
  exact (broadcastInDim_apply ![1] h3 b (ix2 u q) (ix1 q) (fun a => by
    match a with
    | ⟨0, _⟩ =>
      show q.val = if c = 1 then 0 else q.val
      split
      · have := q.isLt; omega
      · rfl)).symm

end Cert.Lib.BlockBodies

end
-- ==== Proof.LibRegionOp.lean ====
/-
  A pipelined region with two input windows and one output window, seen from the host.

  When such a region ends, the device's buffers are what they were at entry except at the three windows' arrays, which
  hold what the pipeline leaves there. If the two input arrays end as they were entered and the output array ends at
  `f` of the two inputs' entry contents, the region has changed the buffers exactly as ONE host operation
  `y = f a b` would have: every buffer other than `y` keeps its contents and `y` takes `f` of `a`'s and `b`'s. A program
  that alternates stretches of host operations with such regions therefore leaves the buffers that a single list of
  host operations leaves, and what a buffer holds at the end is read off that list.
-/
import Idealize.ShloMosaic.Lib.Pipeline.FrameSuffix
import Idealize.ShloMosaic.Lib.StableHlo.Run

noncomputable section

namespace Cert.Lib.RegionOp

open Idealize.ShloMosaic Idealize.ShloMosaic.Pipeline Idealize.ShloMosaic.TcCoe Idealize.SL.Sem

variable {nD : Nat} {τ : Topo} {sig : RefSig} {Val : EltTy → Type}

/-- The buffers a three-window region leaves — the arrays at `A`, everything else as entered (`V`) — are the buffers
    the host operation `arr 2 = f (arr 0) (arr 1)` leaves from `V`, when `A 0` and `A 1` are the entry contents of the
    first two arrays and `A 2` is `f` of them. -/
theorem withArrays_eq_binary_result {gr : Nat} (win : Fin 3 → WinSpec sig gr) (hinj : Function.Injective (arrRef win))
    (c : Dev nD) (V : Valuation τ sig Val) (A : (w : Fin 3) → Buf Val ((win w).arr.view.loc (c.tc : Thread nD τ)))
    (f : (arrRef win 0).ty.Contents Val → (arrRef win 1).ty.Contents Val → (arrRef win 2).ty.Contents Val) (ha hb hy)
    (h0 : A 0 = V (Proc.devRef .tc (arrRef win 0))) (h1 : A 1 = V (Proc.devRef .tc (arrRef win 1)))
    (h2 : A 2 = f (V (Proc.devRef .tc (arrRef win 0))) (V (Proc.devRef .tc (arrRef win 1)))) :
    withArrays win c V A = (StableHlo.binary (τ := τ) (arrRef win 0) (arrRef win 1) (arrRef win 2) f ha hb hy).result V := by
  have n02 : arrRef win 0 ≠ arrRef win 2 := fun e => absurd (hinj e) (by decide)
  have n12 : arrRef win 1 ≠ arrRef win 2 := fun e => absurd (hinj e) (by decide)
  funext b
  by_cases h : ∃ w, Proc.devRef .tc (arrRef win w) = b
  · obtain ⟨w, rfl⟩ := h
    rw [withArrays_arr win hinj c V A w]
    match w with
    | ⟨0, _⟩ => exact h0.trans (StableHlo.binary_result_ne _ _ _ f ha hb hy V n02).symm
    | ⟨1, _⟩ => exact h1.trans (StableHlo.binary_result_ne _ _ _ f ha hb hy V n12).symm
    | ⟨2, _⟩ => exact h2.trans (StableHlo.binary_result _ _ _ f ha hb hy V).symm
  · have hb' : b ∉ (StableHlo.binary (τ := τ) (arrRef win 0) (arrRef win 1) (arrRef win 2) f ha hb hy).writes := by
      rw [StableHlo.binary_writes, Finset.mem_singleton]
      exact fun e => h ⟨2, e.symm⟩
    rw [HloOp.result_of_not_mem _ V hb']
    unfold withArrays
    rw [dif_neg h]

end Cert.Lib.RegionOp

end
-- ==== Proof.Region0.lean ====
/-
  Region 0 of the kernel: a dense layer's product, 5000 rows at a time.

  The region multiplies the `[100000, 512]` array `main_arg0` by the `[512, 16]` array `main_arg2`. At grid point `t` its body
  loads rows `5000·t … 5000·t + 4999` of the left array and the whole right array, narrows both to bf16 (the identity on
  the extended reals) and multiplies them into a zero accumulator; the result is written back as the same rows of
  `main_v30`. Entry `(p, b)` of a block depends on row `p` of the block and column `b` of the right array only, so the block
  is those rows of the whole product, and the 20 blocks tile the output: the region leaves `main_v30` holding
  `∑ k, main_arg0[a,k] · main_arg2[k,b]`, which is what a host `dot_general` of the two arrays computes. Seen from the host the
  region is therefore the one operation `main_v30 = dot_general main_arg0 main_arg2`.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

theorem hd : dot_S5000x512_S512x16_S5000x16_1_0_0_1_n_n = DotDims.plain 5000 512 16 := rfl

/-- The body's arithmetic on its two loaded blocks is their product. -/
theorem pay (x0 : Vec Ideal S5000x512 .f32) (x1 : Vec Ideal S512x16 .f32) : k0_pay1 x0 x1 = rowsByCols x0 x1 :=
  mxu_product _ hd x0 x1 _ _

/-- The three index maps over the 20 grid points: the row block moves with the point, the second operand stays put. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region finds them. -/
theorem flushed (c : Dev nD) (t : Fin cfg0.N) :
    (dat0 V c).flushed 2 t = ((cfg0.win 2).blk t).view.read (Elt Ideal) (rowsByCols (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  rw [pay]
  funext j
  show rowsByCols (iblk0 V c 0 t) (iblk0 V c 1 t) j
    = rowsByCols (V c main_arg0) (V c main_arg2) (((cfg0.win 2).blk t).view.emb j)
  obtain ⟨e00, e01, e10, e11, e20, e21⟩ := idx t
  refine rowsByCols_congr (V c main_arg0) (V c main_arg2) (iblk0 V c 0 t) (iblk0 V c 1 t) j _ (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 512 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  have ht : (i 0).val / 5000 < cfg0.N := by omega
  obtain ⟨-, -, -, -, e20, e21⟩ := idx ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 16 ≤ (i 1).val
      ∧ (i 1).val < win0_2.index ⟨(i 0).val / 5000, ht⟩ (1 : Fin 2) * 16 + 16
    rw [e21]
    omega

/-- After the region the output array is the whole product. -/
theorem final (c : Dev nD) : (dat0 V c).arrAt 2 cfg0.N = rowsByCols (V c main_arg0) (V c main_arg2) :=
  (dat0 V c).arrAt_eq_of_cover 2 _ (fun t _ => flushed V c t) cover

/-- The whole-array product, as a host program spells it. -/
abbrev fn : (⟨S100000x512, .f32⟩ : BufTy).Contents (Elt Ideal) → (⟨S512x16, .f32⟩ : BufTy).Contents (Elt Ideal)
    → (⟨S100000x16, .f32⟩ : BufTy).Contents (Elt Ideal) :=
  fun l r => Host.dotGeneral (F := Ideal) (φ₁ := .f32) (φ₂ := .f32) (DotDims.plain 100000 512 16) none l r

theorem final_host (c : Dev nD) : (dat0 V c).arrAt 2 cfg0.N = fn (V c main_arg0) (V c main_arg2) :=
  (final V c).trans (dotGeneral_eq (φ₁ := .f32) (φ₂ := .f32) (DotDims.plain 100000 512 16) rfl none .single
    (V c main_arg0) (V c main_arg2)).symm

/-- The buffers the region leaves are the buffers the host operation `main_v30 = fn main_arg0 main_arg2` leaves. -/
theorem asOp (W : Dev nD → Valuation τ sig (Elt Ideal)) (c : Dev nD) :
    Pipeline.withArrays spec0 c (W c) (fun w => (dat0 (fun c b => W c b) c).arrAt w cfg0.N)
      = (StableHlo.binary (τ := τ) main_arg0 main_arg2 main_v30 fn).result (W c) :=
  withArrays_eq_binary_result spec0 launch0.win.arr_inj c (W c) _ fn _ _ _
    (((dat0 (fun c b => W c b) c).arrAt_in 0 rfl _).trans (A_eq0 (fun c b => W c b) c 0))
    (((dat0 (fun c b => W c b) c).arrAt_in 1 rfl _).trans (A_eq0 (fun c b => W c b) c 1))
    (final_host (fun c b => W c b) c)

end Cert.KernelIdeal.Region0

end
-- ==== Proof.Region1.lean ====
/-
  Region 1 of the kernel: a bias row added to every row, then rectified, 5000 rows at a time.

  At grid point `t` the body loads rows `5000·t … 5000·t + 4999` of the `[100000, 16]` array `main_v43` and the whole one-row
  array `main_v44`, spreads the row over the block, adds, takes the maximum with zero and writes the result back as the same rows
  of `main_v45`. Entry `(p, q)` of a block is `max (main_v43[5000·t + p, q] + main_v44[0,q]) 0`: it depends on that one entry and on the bias
  entry of its column, so the block is those rows of the whole array `biasRect main_v43 main_v44`, and the 20 blocks tile the
  output. Seen from the host the region is the one operation that adds the spread row and rectifies.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its two loaded blocks. -/
theorem pay (x0 : Vec Ideal S5000x16 .f32) (x1 : Vec Ideal S1x16 .f32) : k1_pay1 x0 x1 = biasRect x0 x1 :=
  rect_block x0 x1 _ _ _

/-- The three index maps over the 20 grid points: the row block moves with the point, the second operand stays put. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRect` of the two arrays as the region finds them. -/
theorem flushed (c : Dev nD) (t : Fin cfg1.N) :
    (dat1 V c).flushed 2 t = ((cfg1.win 2).blk t).view.read (Elt Ideal) (biasRect (V c main_v43) (V c main_v44)) := by
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  rw [pay]
  funext j
  show biasRect (iblk1 V c 0 t) (iblk1 V c 1 t) j
    = biasRect (V c main_v43) (V c main_v44) (((cfg1.win 2).blk t).view.emb j)
  obtain ⟨e00, e01, e10, e11, e20, e21⟩ := idx t
  refine biasRect_congr (V c main_v43) (V c main_v44) (iblk1 V c 0 t) (iblk1 V c 1 t) j _ ?_ ?_
  · show V c main_v43 (((cfg1.win 0).blk t).view.emb j) = V c main_v43 (((cfg1.win 2).blk t).view.emb j)
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 16 + 1 * (j 1).val = win1_2.index t (1 : Fin 2) * 16 + 1 * (j 1).val
      omega
  · show V c main_v44 (((cfg1.win 1).blk t).view.emb (ix2 (0 : Fin 1) (j 1)))
      = V c main_v44 (ix2 (0 : Fin 1) ((((cfg1.win 2).blk t).view.emb j) 1))
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 16 + 1 * (j 1).val = win1_2.index t (1 : Fin 2) * 16 + 1 * (j 1).val
      omega

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v45).slice (win1_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 16 := (i 1).isLt
  have ht : (i 0).val / 5000 < cfg1.N := by omega
  obtain ⟨-, -, -, -, e20, e21⟩ := idx ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 16 ≤ (i 1).val
      ∧ (i 1).val < win1_2.index ⟨(i 0).val / 5000, ht⟩ (1 : Fin 2) * 16 + 16
    rw [e21]
    omega

/-- After the region the output array is `biasRect` of the two arrays. -/
theorem final (c : Dev nD) : (dat1 V c).arrAt 2 cfg1.N = biasRect (V c main_v43) (V c main_v44) :=
  (dat1 V c).arrAt_eq_of_cover 2 _ (fun t _ => flushed V c t) cover

/-- The same array, as a host program spells it: the row spread over the rows, added, the maximum with a spread zero. -/
abbrev fn : (⟨S100000x16, .f32⟩ : BufTy).Contents (Elt Ideal) → (⟨S1x16, .f32⟩ : BufTy).Contents (Elt Ideal)
    → (⟨S100000x16, .f32⟩ : BufTy).Contents (Elt Ideal) :=
  fun a b => maximumf (addf a (broadcastInDim S100000x16 ![0, 1] (by decide) b))
    (broadcastInDim S100000x16 ![] (by decide) (constant (F := Ideal) S_ .f32 0x00000000#32))

theorem final_host (c : Dev nD) : (dat1 V c).arrAt 2 cfg1.N = fn (V c main_v43) (V c main_v44) :=
  (final V c).trans (host_rect_row (V c main_v43) (V c main_v44) (by decide) (by decide)).symm

/-- The buffers the region leaves are the buffers the host operation `main_v45 = fn main_v43 main_v44` leaves. -/
theorem asOp (W : Dev nD → Valuation τ sig (Elt Ideal)) (c : Dev nD) :
    Pipeline.withArrays spec1 c (W c) (fun w => (dat1 (fun c b => W c b) c).arrAt w cfg1.N)
      = (StableHlo.binary (τ := τ) main_v43 main_v44 main_v45 fn).result (W c) :=
  withArrays_eq_binary_result spec1 launch1.win.arr_inj c (W c) _ fn _ _ _
    (((dat1 (fun c b => W c b) c).arrAt_in 0 rfl _).trans (A_eq1 (fun c b => W c b) c 0))
    (((dat1 (fun c b => W c b) c).arrAt_in 1 rfl _).trans (A_eq1 (fun c b => W c b) c 1))
    (final_host (fun c b => W c b) c)

end Cert.KernelIdeal.Region1

end
-- ==== Proof.Region2.lean ====
/-
  Region 2 of the kernel: a dense layer's product, 5000 rows at a time.

  The region multiplies the `[100000, 16]` array `main_v45` by the `[16, 32]` array `main_arg4`. At grid point `t` its body
  loads rows `5000·t … 5000·t + 4999` of the left array and the whole right array, narrows both to bf16 (the identity on
  the extended reals) and multiplies them into a zero accumulator; the result is written back as the same rows of
  `main_v46`. Entry `(p, b)` of a block depends on row `p` of the block and column `b` of the right array only, so the block
  is those rows of the whole product, and the 20 blocks tile the output: the region leaves `main_v46` holding
  `∑ k, main_v45[a,k] · main_arg4[k,b]`, which is what a host `dot_general` of the two arrays computes. Seen from the host the
  region is therefore the one operation `main_v46 = dot_general main_v45 main_arg4`.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

theorem hd : dot_S5000x16_S16x32_S5000x32_1_0_0_1_n_n = DotDims.plain 5000 16 32 := rfl

/-- The body's arithmetic on its two loaded blocks is their product. -/
theorem pay (x0 : Vec Ideal S5000x16 .f32) (x1 : Vec Ideal S16x32 .f32) : k2_pay1 x0 x1 = rowsByCols x0 x1 :=
  mxu_product_recast _ hd x0 x1 _ _ _

/-- The three index maps over the 20 grid points: the row block moves with the point, the second operand stays put. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays as the region finds them. -/
theorem flushed (c : Dev nD) (t : Fin cfg2.N) :
    (dat2 V c).flushed 2 t = ((cfg2.win 2).blk t).view.read (Elt Ideal) (rowsByCols (V c main_v45) (V c main_arg4)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x32) hz]
  rw [pay]
  funext j
  show rowsByCols (iblk2 V c 0 t) (iblk2 V c 1 t) j
    = rowsByCols (V c main_v45) (V c main_arg4) (((cfg2.win 2).blk t).view.emb j)
  obtain ⟨e00, e01, e10, e11, e20, e21⟩ := idx t
  refine rowsByCols_congr (V c main_v45) (V c main_arg4) (iblk2 V c 0 t) (iblk2 V c 1 t) j _ (fun k => ?_) (fun k => ?_)
  · show V c main_v45 (((cfg2.win 0).blk t).view.emb (ix2 (j 0) k))
      = V c main_v45 (ix2 ((((cfg2.win 2).blk t).view.emb j) 0) k)
    refine congrArg (V c main_v45) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 16 + 1 * k.val = k.val
      omega
  · show V c main_arg4 (((cfg2.win 1).blk t).view.emb (ix2 k (j 1)))
      = V c main_arg4 (ix2 k ((((cfg2.win 2).blk t).view.emb j) 1))
    refine congrArg (V c main_arg4) (funext fun a => Fin.ext ?_)
    match a with
    | ⟨0, _⟩ =>
      show win2_1.index t (0 : Fin 2) * 16 + 1 * k.val = k.val
      omega
    | ⟨1, _⟩ =>
      show win2_1.index t (1 : Fin 2) * 32 + 1 * (j 1).val = win2_2.index t (1 : Fin 2) * 32 + 1 * (j 1).val
      omega

/-- An index of the output array is in point `t`'s block iff each coordinate is in the block's range on its axis. -/
theorem mem_blk (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v46).slice (win2_2.rect t)).set ↔ _
  rw [View.set_slice_whole, Rect.mem_set_unit]
  exact Iff.rfl

/-- Row `r` of the output lies in the block of point `r / 5000`: the 20 blocks of 5000 rows tile the 100000 rows. -/
theorem cover (i : S100000x32.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 32 := (i 1).isLt
  have ht : (i 0).val / 5000 < cfg2.N := by omega
  obtain ⟨-, -, -, -, e20, e21⟩ := idx ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, ht⟩ (1 : Fin 2) * 32 ≤ (i 1).val
      ∧ (i 1).val < win2_2.index ⟨(i 0).val / 5000, ht⟩ (1 : Fin 2) * 32 + 32
    rw [e21]
    omega

/-- After the region the output array is the whole product. -/
theorem final (c : Dev nD) : (dat2 V c).arrAt 2 cfg2.N = rowsByCols (V c main_v45) (V c main_arg4) :=
  (dat2 V c).arrAt_eq_of_cover 2 _ (fun t _ => flushed V c t) cover

/-- The whole-array product, as a host program spells it. -/
abbrev fn : (⟨S100000x16, .f32⟩ : BufTy).Contents (Elt Ideal) → (⟨S16x32, .f32⟩ : BufTy).Contents (Elt Ideal)
    → (⟨S100000x32, .f32⟩ : BufTy).Contents (Elt Ideal) :=
  fun l r => Host.dotGeneral (F := Ideal) (φ₁ := .f32) (φ₂ := .f32) (DotDims.plain 100000 16 32) none l r

theorem final_host (c : Dev nD) : (dat2 V c).arrAt 2 cfg2.N = fn (V c main_v45) (V c main_arg4) :=
  (final V c).trans (dotGeneral_eq (φ₁ := .f32) (φ₂ := .f32) (DotDims.plain 100000 16 32) rfl none .single
    (V c main_v45) (V c main_arg4)).symm

/-- The buffers the region leaves are the buffers the host operation `main_v46 = fn main_v45 main_arg4` leaves. -/
theorem asOp (W : Dev nD → Valuation τ sig (Elt Ideal)) (c : Dev nD) :
    Pipeline.withArrays spec2 c (W c) (fun w => (dat2 (fun c b => W c b) c).arrAt w cfg2.N)
      = (StableHlo.binary (τ := τ) main_v45 main_arg4 main_v46 fn).result (W c) :=
  withArrays_eq_binary_result spec2 launch2.win.arr_inj c (W c) _ fn _ _ _
    (((dat2 (fun c b => W c b) c).arrAt_in 0 rfl _).trans (A_eq2 (fun c b => W c b) c 0))
    (((dat2 (fun c b => W c b) c).arrAt_in 1 rfl _).trans (A_eq2 (fun c b => W c b) c 1))
    (final_host (fun c b => W c b) c)

end Cert.KernelIdeal.Region2

end
-- ==== Proof.Region3.lean ====
/-
  Region 3 of the kernel: a bias row added to every row, then rectified, 5000 rows at a time.

  At grid point `t` the body loads rows `5000·t … 5000·t + 4999` of the `[100000, 32]` array `main_v59` and the whole one-row
  array `main_v60`, spreads the row over the block, adds, takes the maximum with zero and writes the result back as the same rows
  of `main_v61`. Entry `(p, q)` of a block is `max (main_v59[5000·t + p, q] + main_v60[0,q]) 0`: it depends on that one entry and on the bias
  entry of its column, so the block is those rows of the whole array `biasRect main_v59 main_v60`, and the 20 blocks tile the
  output. Seen from the host the region is the one operation that adds the spread row and rectifies.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its two loaded blocks. -/
theorem pay (x0 : Vec Ideal S5000x32 .f32) (x1 : Vec Ideal S1x32 .f32) : k3_pay1 x0 x1 = biasRect x0 x1 :=
  rect_block x0 x1 _ _ _

/-- The three index maps over the 20 grid points: the row block moves with the point, the second operand stays put. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRect` of the two arrays as the region finds them. -/
theorem flushed (c : Dev nD) (t : Fin cfg3.N) :
    (dat3 V c).flushed 2 t = ((cfg3.win 2).blk t).view.read (Elt Ideal) (biasRect (V c main_v59) (V c main_v60)) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  rw [pay]
  funext j
  show biasRect (iblk3 V c 0 t) (iblk3 V c 1 t) j
    = biasRect (V c main_v59) (V c main_v60) (((cfg3.win 2).blk t).view.emb j)
  obtain ⟨e00, e01, e10, e11, e20, e21⟩ := idx t
  refine biasRect_congr (V c main_v59) (V c main_v60) (iblk3 V c 0 t) (iblk3 V c 1 t) j _ ?_ ?_
  · show V c main_v59 (((cfg3.win 0).blk t).view.emb j) = V c main_v59 (((cfg3.win 2).blk t).view.emb j)
    refine congrArg (V c main_v59) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 32 + 1 * (j 1).val = win3_2.index t (1 : Fin 2) * 32 + 1 * (j 1).val
      omega
  · show V c main_v60 (((cfg3.win 1).blk t).view.emb (ix2 (0 : Fin 1) (j 1)))
      = V c main_v60 (ix2 (0 : Fin 1) ((((cfg3.win 2).blk t).view.emb j) 1))
    refine congrArg (V c main_v60) (funext fun a => Fin.ext ?_)
    match a with
    | ⟨0, _⟩ =>
      show win3_1.index t (0 : Fin 2) * 1 + 1 * 0 = 0
      omega
    | ⟨1, _⟩ =>
      show win3_1.index t (1 : Fin 2) * 32 + 1 * (j 1).val = win3_2.index t (1 : Fin 2) * 32 + 1 * (j 1).val
      omega

/-- An index of the output array is in point `t`'s block iff each coordinate is in the block's range on its axis. -/
theorem mem_blk (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v61).slice (win3_2.rect t)).set ↔ _
  rw [View.set_slice_whole, Rect.mem_set_unit]
  exact Iff.rfl

/-- Row `r` of the output lies in the block of point `r / 5000`: the 20 blocks of 5000 rows tile the 100000 rows. -/
theorem cover (i : S100000x32.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 32 := (i 1).isLt
  have ht : (i 0).val / 5000 < cfg3.N := by omega
  obtain ⟨-, -, -, -, e20, e21⟩ := idx ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    rw [e21]
    omega

/-- After the region the output array is `biasRect` of the two arrays. -/
theorem final (c : Dev nD) : (dat3 V c).arrAt 2 cfg3.N = biasRect (V c main_v59) (V c main_v60) :=
  (dat3 V c).arrAt_eq_of_cover 2 _ (fun t _ => flushed V c t) cover

/-- The same array, as a host program spells it: the row spread over the rows, added, the maximum with a spread zero. -/
abbrev fn : (⟨S100000x32, .f32⟩ : BufTy).Contents (Elt Ideal) → (⟨S1x32, .f32⟩ : BufTy).Contents (Elt Ideal)
    → (⟨S100000x32, .f32⟩ : BufTy).Contents (Elt Ideal) :=
  fun a b => maximumf (addf a (broadcastInDim S100000x32 ![0, 1] (by decide) b))
    (broadcastInDim S100000x32 ![] (by decide) (constant (F := Ideal) S_ .f32 0x00000000#32))

theorem final_host (c : Dev nD) : (dat3 V c).arrAt 2 cfg3.N = fn (V c main_v59) (V c main_v60) :=
  (final V c).trans (host_rect_row (V c main_v59) (V c main_v60) (by decide) (by decide)).symm

/-- The buffers the region leaves are the buffers the host operation `main_v61 = fn main_v59 main_v60` leaves. -/
theorem asOp (W : Dev nD → Valuation τ sig (Elt Ideal)) (c : Dev nD) :
    Pipeline.withArrays spec3 c (W c) (fun w => (dat3 (fun c b => W c b) c).arrAt w cfg3.N)
      = (StableHlo.binary (τ := τ) main_v59 main_v60 main_v61 fn).result (W c) :=
  withArrays_eq_binary_result spec3 launch3.win.arr_inj c (W c) _ fn _ _ _
    (((dat3 (fun c b => W c b) c).arrAt_in 0 rfl _).trans (A_eq3 (fun c b => W c b) c 0))
    (((dat3 (fun c b => W c b) c).arrAt_in 1 rfl _).trans (A_eq3 (fun c b => W c b) c 1))
    (final_host (fun c b => W c b) c)

end Cert.KernelIdeal.Region3

end
-- ==== Proof.Region4.lean ====
/-
  Region 4 of the kernel: a dense layer's product, 5000 rows at a time.

  The region multiplies the `[100000, 32]` array `main_v61` by the `[32, 16]` array `main_arg6`. At grid point `t` its body
  loads rows `5000·t … 5000·t + 4999` of the left array and the whole right array, narrows both to bf16 (the identity on
  the extended reals) and multiplies them into a zero accumulator; the result is written back as the same rows of
  `main_v62`. Entry `(p, b)` of a block depends on row `p` of the block and column `b` of the right array only, so the block
  is those rows of the whole product, and the 20 blocks tile the output: the region leaves `main_v62` holding
  `∑ k, main_v61[a,k] · main_arg6[k,b]`, which is what a host `dot_general` of the two arrays computes. Seen from the host the
  region is therefore the one operation `main_v62 = dot_general main_v61 main_arg6`.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

theorem hd : dot_S5000x32_S32x16_S5000x16_1_0_0_1_n_n = DotDims.plain 5000 32 16 := rfl

/-- The body's arithmetic on its two loaded blocks is their product. -/
theorem pay (x0 : Vec Ideal S5000x32 .f32) (x1 : Vec Ideal S32x16 .f32) : k4_pay1 x0 x1 = rowsByCols x0 x1 :=
  mxu_product_recast _ hd x0 x1 _ _ _

/-- The three index maps over the 20 grid points: the row block moves with the point, the second operand stays put. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the two arrays as the region finds them. -/
theorem flushed (c : Dev nD) (t : Fin cfg4.N) :
    (dat4 V c).flushed 2 t = ((cfg4.win 2).blk t).view.read (Elt Ideal) (rowsByCols (V c main_v61) (V c main_arg6)) := by
  show (cfg4.win 2).cut (grid4.coords t) ((dat4 V c).after 2 t) = _
  rw [after4_2]
  unfold out4_2
  rw [View.canon_unit_zero hz]
  simp only [View.ld_unit_zero (S := S5000x32) hz, View.ld_unit_zero (S := S32x16) hz]
  rw [pay]
  funext j
  show rowsByCols (iblk4 V c 0 t) (iblk4 V c 1 t) j
    = rowsByCols (V c main_v61) (V c main_arg6) (((cfg4.win 2).blk t).view.emb j)
  obtain ⟨e00, e01, e10, e11, e20, e21⟩ := idx t
  refine rowsByCols_congr (V c main_v61) (V c main_arg6) (iblk4 V c 0 t) (iblk4 V c 1 t) j _ (fun k => ?_) (fun k => ?_)
  · show V c main_v61 (((cfg4.win 0).blk t).view.emb (ix2 (j 0) k))
      = V c main_v61 (ix2 ((((cfg4.win 2).blk t).view.emb j) 0) k)
    refine congrArg (V c main_v61) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 32 + 1 * k.val = k.val
      omega
  · show V c main_arg6 (((cfg4.win 1).blk t).view.emb (ix2 k (j 1)))
      = V c main_arg6 (ix2 k ((((cfg4.win 2).blk t).view.emb j) 1))
    refine congrArg (V c main_arg6) (funext fun a => Fin.ext ?_)
    match a with
    | ⟨0, _⟩ =>
      show win4_1.index t (0 : Fin 2) * 32 + 1 * k.val = k.val
      omega
    | ⟨1, _⟩ =>
      show win4_1.index t (1 : Fin 2) * 16 + 1 * (j 1).val = win4_2.index t (1 : Fin 2) * 16 + 1 * (j 1).val
      omega

/-- An index of the output array is in point `t`'s block iff each coordinate is in the block's range on its axis. -/
theorem mem_blk (t : Fin cfg4.N) (i : S100000x16.Idx) :
    i ∈ ((cfg4.win 2).blk t).view.set ↔ ∀ a : Fin 2, win4_2.index t a * S5000x16.size a ≤ (i a).val
      ∧ (i a).val < win4_2.index t a * S5000x16.size a + S5000x16.size a := by
  show i ∈ ((View.whole main_v62).slice (win4_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 16 := (i 1).isLt
  have ht : (i 0).val / 5000 < cfg4.N := by omega
  obtain ⟨-, -, -, -, e20, e21⟩ := idx ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win4_2.index ⟨(i 0).val / 5000, ht⟩ (1 : Fin 2) * 16 ≤ (i 1).val
      ∧ (i 1).val < win4_2.index ⟨(i 0).val / 5000, ht⟩ (1 : Fin 2) * 16 + 16
    rw [e21]
    omega

/-- After the region the output array is the whole product. -/
theorem final (c : Dev nD) : (dat4 V c).arrAt 2 cfg4.N = rowsByCols (V c main_v61) (V c main_arg6) :=
  (dat4 V c).arrAt_eq_of_cover 2 _ (fun t _ => flushed V c t) cover

/-- The whole-array product, as a host program spells it. -/
abbrev fn : (⟨S100000x32, .f32⟩ : BufTy).Contents (Elt Ideal) → (⟨S32x16, .f32⟩ : BufTy).Contents (Elt Ideal)
    → (⟨S100000x16, .f32⟩ : BufTy).Contents (Elt Ideal) :=
  fun l r => Host.dotGeneral (F := Ideal) (φ₁ := .f32) (φ₂ := .f32) (DotDims.plain 100000 32 16) none l r

theorem final_host (c : Dev nD) : (dat4 V c).arrAt 2 cfg4.N = fn (V c main_v61) (V c main_arg6) :=
  (final V c).trans (dotGeneral_eq (φ₁ := .f32) (φ₂ := .f32) (DotDims.plain 100000 32 16) rfl none .single
    (V c main_v61) (V c main_arg6)).symm

/-- The buffers the region leaves are the buffers the host operation `main_v62 = fn main_v61 main_arg6` leaves. -/
theorem asOp (W : Dev nD → Valuation τ sig (Elt Ideal)) (c : Dev nD) :
    Pipeline.withArrays spec4 c (W c) (fun w => (dat4 (fun c b => W c b) c).arrAt w cfg4.N)
      = (StableHlo.binary (τ := τ) main_v61 main_arg6 main_v62 fn).result (W c) :=
  withArrays_eq_binary_result spec4 launch4.win.arr_inj c (W c) _ fn _ _ _
    (((dat4 (fun c b => W c b) c).arrAt_in 0 rfl _).trans (A_eq4 (fun c b => W c b) c 0))
    (((dat4 (fun c b => W c b) c).arrAt_in 1 rfl _).trans (A_eq4 (fun c b => W c b) c 1))
    (final_host (fun c b => W c b) c)

end Cert.KernelIdeal.Region4

end
-- ==== Proof.Region5.lean ====
/-
  Region 5 of the kernel: a bias row added to every row, then rectified, 5000 rows at a time.

  At grid point `t` the body loads rows `5000·t … 5000·t + 4999` of the `[100000, 16]` array `main_v75` and the whole one-row
  array `main_v76`, spreads the row over the block, adds, takes the maximum with zero and writes the result back as the same rows
  of `main_v77`. Entry `(p, q)` of a block is `max (main_v75[5000·t + p, q] + main_v76[0,q]) 0`: it depends on that one entry and on the bias
  entry of its column, so the block is those rows of the whole array `biasRect main_v75 main_v76`, and the 20 blocks tile the
  output. Seen from the host the region is the one operation that adds the spread row and rectifies.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its two loaded blocks. -/
theorem pay (x0 : Vec Ideal S5000x16 .f32) (x1 : Vec Ideal S1x16 .f32) : k5_pay1 x0 x1 = biasRect x0 x1 :=
  rect_block x0 x1 _ _ _

/-- The three index maps over the 20 grid points: the row block moves with the point, the second operand stays put. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `biasRect` of the two arrays as the region finds them. -/
theorem flushed (c : Dev nD) (t : Fin cfg5.N) :
    (dat5 V c).flushed 2 t = ((cfg5.win 2).blk t).view.read (Elt Ideal) (biasRect (V c main_v75) (V c main_v76)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  rw [pay]
  funext j
  show biasRect (iblk5 V c 0 t) (iblk5 V c 1 t) j
    = biasRect (V c main_v75) (V c main_v76) (((cfg5.win 2).blk t).view.emb j)
  obtain ⟨e00, e01, e10, e11, e20, e21⟩ := idx t
  refine biasRect_congr (V c main_v75) (V c main_v76) (iblk5 V c 0 t) (iblk5 V c 1 t) j _ ?_ ?_
  · show V c main_v75 (((cfg5.win 0).blk t).view.emb j) = V c main_v75 (((cfg5.win 2).blk t).view.emb j)
    refine congrArg (V c main_v75) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 16 + 1 * (j 1).val = win5_2.index t (1 : Fin 2) * 16 + 1 * (j 1).val
      omega
  · show V c main_v76 (((cfg5.win 1).blk t).view.emb (ix2 (0 : Fin 1) (j 1)))
      = V c main_v76 (ix2 (0 : Fin 1) ((((cfg5.win 2).blk t).view.emb j) 1))
    refine congrArg (V c main_v76) (funext fun a => Fin.ext ?_)
    match a with
    | ⟨0, _⟩ =>
      show win5_1.index t (0 : Fin 2) * 1 + 1 * 0 = 0
      omega
    | ⟨1, _⟩ =>
      show win5_1.index t (1 : Fin 2) * 16 + 1 * (j 1).val = win5_2.index t (1 : Fin 2) * 16 + 1 * (j 1).val
      omega

/-- An index of the output array is in point `t`'s block iff each coordinate is in the block's range on its axis. -/
theorem mem_blk (t : Fin cfg5.N) (i : S100000x16.Idx) :
    i ∈ ((cfg5.win 2).blk t).view.set ↔ ∀ a : Fin 2, win5_2.index t a * S5000x16.size a ≤ (i a).val
      ∧ (i a).val < win5_2.index t a * S5000x16.size a + S5000x16.size a := by
  show i ∈ ((View.whole main_v77).slice (win5_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg5.N, (cfg5.win 2).flush t = true ∧ i ∈ ((cfg5.win 2).blk t).view.set := by
  have hN : cfg5.N = 20 := N_5
  have hi0 : (i 0).val < 100000 := (i 0).isLt
  have hi1 : (i 1).val < 16 := (i 1).isLt
  have ht : (i 0).val / 5000 < cfg5.N := by omega
  obtain ⟨-, -, -, -, e20, e21⟩ := idx ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win5_2.index ⟨(i 0).val / 5000, ht⟩ (1 : Fin 2) * 16 ≤ (i 1).val
      ∧ (i 1).val < win5_2.index ⟨(i 0).val / 5000, ht⟩ (1 : Fin 2) * 16 + 16
    rw [e21]
    omega

/-- After the region the output array is `biasRect` of the two arrays. -/
theorem final (c : Dev nD) : (dat5 V c).arrAt 2 cfg5.N = biasRect (V c main_v75) (V c main_v76) :=
  (dat5 V c).arrAt_eq_of_cover 2 _ (fun t _ => flushed V c t) cover

/-- The same array, as a host program spells it: the row spread over the rows, added, the maximum with a spread zero. -/
abbrev fn : (⟨S100000x16, .f32⟩ : BufTy).Contents (Elt Ideal) → (⟨S1x16, .f32⟩ : BufTy).Contents (Elt Ideal)
    → (⟨S100000x16, .f32⟩ : BufTy).Contents (Elt Ideal) :=
  fun a b => maximumf (addf a (broadcastInDim S100000x16 ![0, 1] (by decide) b))
    (broadcastInDim S100000x16 ![] (by decide) (constant (F := Ideal) S_ .f32 0x00000000#32))

theorem final_host (c : Dev nD) : (dat5 V c).arrAt 2 cfg5.N = fn (V c main_v75) (V c main_v76) :=
  (final V c).trans (host_rect_row (V c main_v75) (V c main_v76) (by decide) (by decide)).symm

/-- The buffers the region leaves are the buffers the host operation `main_v77 = fn main_v75 main_v76` leaves. -/
theorem asOp (W : Dev nD → Valuation τ sig (Elt Ideal)) (c : Dev nD) :
    Pipeline.withArrays spec5 c (W c) (fun w => (dat5 (fun c b => W c b) c).arrAt w cfg5.N)
      = (StableHlo.binary (τ := τ) main_v75 main_v76 main_v77 fn).result (W c) :=
  withArrays_eq_binary_result spec5 launch5.win.arr_inj c (W c) _ fn _ _ _
    (((dat5 (fun c b => W c b) c).arrAt_in 0 rfl _).trans (A_eq5 (fun c b => W c b) c 0))
    (((dat5 (fun c b => W c b) c).arrAt_in 1 rfl _).trans (A_eq5 (fun c b => W c b) c 1))
    (final_host (fun c b => W c b) c)

end Cert.KernelIdeal.Region5

end
-- ==== Proof.Region6.lean ====
/-
  Region 6 of the kernel: a dense layer's product, 5000 rows at a time.

  The region multiplies the `[100000, 16]` array `main_v77` by the `[16, 16]` array `main_arg8`. At grid point `t` its body
  loads rows `5000·t … 5000·t + 4999` of the left array and the whole right array, narrows both to bf16 (the identity on
  the extended reals) and multiplies them into a zero accumulator; the result is written back as the same rows of
  `main_v78`. Entry `(p, b)` of a block depends on row `p` of the block and column `b` of the right array only, so the block
  is those rows of the whole product, and the 20 blocks tile the output: the region leaves `main_v78` holding
  `∑ k, main_v77[a,k] · main_arg8[k,b]`, which is what a host `dot_general` of the two arrays computes. Seen from the host the
  region is therefore the one operation `main_v78 = dot_general main_v77 main_arg8`.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

theorem hd : dot_S5000x16_S16x16_S5000x16_1_0_0_1_n_n = DotDims.plain 5000 16 16 := rfl

/-- The body's arithmetic on its two loaded blocks is their product. -/
theorem pay (x0 : Vec Ideal S5000x16 .f32) (x1 : Vec Ideal S16x16 .f32) : k6_pay1 x0 x1 = rowsByCols x0 x1 :=
  mxu_product_recast _ hd x0 x1 _ _ _

/-- The three index maps over the 20 grid points: the row block moves with the point, the second operand stays put. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole product of the two arrays as the region finds them. -/
theorem flushed (c : Dev nD) (t : Fin cfg6.N) :
    (dat6 V c).flushed 2 t = ((cfg6.win 2).blk t).view.read (Elt Ideal) (rowsByCols (V c main_v77) (V c main_arg8)) := by
  show (cfg6.win 2).cut (grid6.coords t) ((dat6 V c).after 2 t) = _
  rw [after6_2]
  unfold out6_2
  rw [View.canon_unit_zero hz]
  simp only [View.ld_unit_zero (S := S5000x16) hz, View.ld_unit_zero (S := S16x16) hz]
  rw [pay]
  funext j
  show rowsByCols (iblk6 V c 0 t) (iblk6 V c 1 t) j
    = rowsByCols (V c main_v77) (V c main_arg8) (((cfg6.win 2).blk t).view.emb j)
  obtain ⟨e00, e01, e10, e11, e20, e21⟩ := idx t
  refine rowsByCols_congr (V c main_v77) (V c main_arg8) (iblk6 V c 0 t) (iblk6 V c 1 t) j _ (fun k => ?_) (fun k => ?_)
  · show V c main_v77 (((cfg6.win 0).blk t).view.emb (ix2 (j 0) k))
      = V c main_v77 (ix2 ((((cfg6.win 2).blk t).view.emb j) 0) k)
    refine congrArg (V c main_v77) (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 16 + 1 * k.val = k.val
      omega
  · show V c main_arg8 (((cfg6.win 1).blk t).view.emb (ix2 k (j 1)))
      = V c main_arg8 (ix2 k ((((cfg6.win 2).blk t).view.emb j) 1))
    refine congrArg (V c main_arg8) (funext fun a => Fin.ext ?_)
    match a with
    | ⟨0, _⟩ =>
      show win6_1.index t (0 : Fin 2) * 16 + 1 * k.val = k.val
      omega
    | ⟨1, _⟩ =>
      show win6_1.index t (1 : Fin 2) * 16 + 1 * (j 1).val = win6_2.index t (1 : Fin 2) * 16 + 1 * (j 1).val
      omega

/-- An index of the output array is in point `t`'s block iff each coordinate is in the block's range on its axis. -/
theorem mem_blk (t : Fin cfg6.N) (i : S100000x16.Idx) :
    i ∈ ((cfg6.win 2).blk t).view.set ↔ ∀ a : Fin 2, win6_2.index t a * S5000x16.size a ≤ (i a).val
      ∧ (i a).val < win6_2.index t a * S5000x16.size a + S5000x16.size a := by
  show i ∈ ((View.whole main_v78).slice (win6_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg6.N, (cfg6.win 2).flush t = true ∧ i ∈ ((cfg6.win 2).blk t).view.set := by
  have hN : cfg6.N = 20 := N_6
  have hi0 : (i 0).val < 100000 := (i 0).isLt
  have hi1 : (i 1).val < 16 := (i 1).isLt
  have ht : (i 0).val / 5000 < cfg6.N := by omega
  obtain ⟨-, -, -, -, e20, e21⟩ := idx ⟨(i 0).val / 5000, ht⟩
  refine ⟨⟨(i 0).val / 5000, ht⟩, flush6_2 _, ?_⟩
  rw [mem_blk]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win6_2.index ⟨(i 0).val / 5000, ht⟩ (1 : Fin 2) * 16 ≤ (i 1).val
      ∧ (i 1).val < win6_2.index ⟨(i 0).val / 5000, ht⟩ (1 : Fin 2) * 16 + 16
    rw [e21]
    omega

/-- After the region the output array is the whole product. -/
theorem final (c : Dev nD) : (dat6 V c).arrAt 2 cfg6.N = rowsByCols (V c main_v77) (V c main_arg8) :=
  (dat6 V c).arrAt_eq_of_cover 2 _ (fun t _ => flushed V c t) cover

/-- The whole-array product, as a host program spells it. -/
abbrev fn : (⟨S100000x16, .f32⟩ : BufTy).Contents (Elt Ideal) → (⟨S16x16, .f32⟩ : BufTy).Contents (Elt Ideal)
    → (⟨S100000x16, .f32⟩ : BufTy).Contents (Elt Ideal) :=
  fun l r => Host.dotGeneral (F := Ideal) (φ₁ := .f32) (φ₂ := .f32) (DotDims.plain 100000 16 16) none l r

theorem final_host (c : Dev nD) : (dat6 V c).arrAt 2 cfg6.N = fn (V c main_v77) (V c main_arg8) :=
  (final V c).trans (dotGeneral_eq (φ₁ := .f32) (φ₂ := .f32) (DotDims.plain 100000 16 16) rfl none .single
    (V c main_v77) (V c main_arg8)).symm

/-- The buffers the region leaves are the buffers the host operation `main_v78 = fn main_v77 main_arg8` leaves. -/
theorem asOp (W : Dev nD → Valuation τ sig (Elt Ideal)) (c : Dev nD) :
    Pipeline.withArrays spec6 c (W c) (fun w => (dat6 (fun c b => W c b) c).arrAt w cfg6.N)
      = (StableHlo.binary (τ := τ) main_v77 main_arg8 main_v78 fn).result (W c) :=
  withArrays_eq_binary_result spec6 launch6.win.arr_inj c (W c) _ fn _ _ _
    (((dat6 (fun c b => W c b) c).arrAt_in 0 rfl _).trans (A_eq6 (fun c b => W c b) c 0))
    (((dat6 (fun c b => W c b) c).arrAt_in 1 rfl _).trans (A_eq6 (fun c b => W c b) c 1))
    (final_host (fun c b => W c b) c)

end Cert.KernelIdeal.Region6

end
-- ==== Proof.Region7.lean ====
/-
  Region 7 of the kernel: a bias row added to every row, 5000 rows at a time.

  At grid point `t` the body loads rows `5000·t … 5000·t + 4999` of the `[100000, 16]` array `main_v78` and the whole one-row
  array `main_v79`, spreads the row over the block, adds and writes the result back as the same rows
  of `main_v80`. Entry `(p, q)` of a block is `main_v78[5000·t + p, q] + main_v79[0,q]`: it depends on that one entry and on the bias
  entry of its column, so the block is those rows of the whole array `biasRow main_v78 main_v79`, and the 20 blocks tile the
  output. Seen from the host the region is the one operation that adds the spread row.
-/
import proofs.«168405_j85899346397_1_alg».proof.Proof.Gen.KernelIdeal.Frame
import proofs.«168405_j85899346397_1_alg».proof.Proof.LibBlockBodies
import proofs.«168405_j85899346397_1_alg».proof.Proof.LibRegionOp
import Idealize.ShloMosaic.Lib.Pipeline.Value

set_option maxRecDepth 16384

noncomputable section

namespace Cert.KernelIdeal.Region7

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.PlainDot Cert.Lib.BiasRect Cert.Lib.BiasRow Cert.Lib.BlockBodies Cert.Lib.RegionOp

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its two loaded blocks. -/
theorem pay (x0 : Vec Ideal S5000x16 .f32) (x1 : Vec Ideal S1x16 .f32) : k7_pay1 x0 x1 = biasRow x0 x1 :=
  row_block x0 x1 _ _ _

/-- The three index maps over the 20 grid points: the row block moves with the point, the second operand stays put. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `biasRow` of the two arrays as the region finds them. -/
theorem flushed (c : Dev nD) (t : Fin cfg7.N) :
    (dat7 V c).flushed 2 t = ((cfg7.win 2).blk t).view.read (Elt Ideal) (biasRow (V c main_v78) (V c main_v79)) := by
  show (cfg7.win 2).cut (grid7.coords t) ((dat7 V c).after 2 t) = _
  rw [after7_2]
  unfold out7_2
  rw [View.canon_unit_zero hz]
  simp only [View.ld_unit_zero (S := S5000x16) hz, View.ld_unit_zero (S := S1x16) hz]
  rw [pay]
  funext j
  show biasRow (iblk7 V c 0 t) (iblk7 V c 1 t) j
    = biasRow (V c main_v78) (V c main_v79) (((cfg7.win 2).blk t).view.emb j)
  obtain ⟨e00, e01, e10, e11, e20, e21⟩ := idx t
  refine biasRow_congr (V c main_v78) (V c main_v79) (iblk7 V c 0 t) (iblk7 V c 1 t) j _ ?_ ?_
  · show V c main_v78 (((cfg7.win 0).blk t).view.emb j) = V c main_v78 (((cfg7.win 2).blk t).view.emb j)
    refine congrArg (V c main_v78) (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 16 + 1 * (j 1).val = win7_2.index t (1 : Fin 2) * 16 + 1 * (j 1).val
      omega
  · show V c main_v79 (((cfg7.win 1).blk t).view.emb (ix2 (0 : Fin 1) (j 1)))
      = V c main_v79 (ix2 (0 : Fin 1) ((((cfg7.win 2).blk t).view.emb j) 1))
    refine congrArg (V c main_v79) (funext fun a => Fin.ext ?_)
    match a with
    | ⟨0, _⟩ =>
      show win7_1.index t (0 : Fin 2) * 1 + 1 * 0 = 0
      omega
    | ⟨1, _⟩ =>
      show win7_1.index t (1 : Fin 2) * 16 + 1 * (j 1).val = win7_2.index t (1 : Fin 2) * 16 + 1 * (j 1).val
      omega

/-- An index of the output array is in point `t`'s block iff each coordinate is in the block's range on its axis. -/
theorem mem_blk (t : Fin cfg7.N) (i : S100000x16.Idx) :
    i ∈ ((cfg7.win 2).blk t).view.set ↔ ∀ a : Fin 2, win7_2.index t a * S5000x16.size a ≤ (i a).val
      ∧ (i a).val < win7_2.index t a * S5000x16.size a + S5000x16.size a := by
  show i ∈ ((View.whole main_v80).slice (win7_2.rect t)).set ↔ _
  rw [View.set_slice_whole, Rect.mem_set_unit]
  exact Iff.rfl

/-- Row `r` of the output lies in the block of point `r / 5000`: the 20 blocks of 5000 rows tile the 100000 rows. -/
theorem cover (i : S100000x16.Idx) :
    ∃ t : Fin cfg7.N, (cfg7.win 2).flush t = true ∧ i ∈ ((cfg7.win 2).blk t).view.set := by
  have hN : cfg7.N = 20 := N_7
  have hi0 : (i 0).val < 100000 := (i 0).isLt
  have hi1 : (i 1).val < 16 := (i 1).isLt
  have ht : (i 0).val / 5000 < cfg7.N := by omega
  obtain ⟨-, -, -, -, e20, e21⟩ := idx ⟨(i 0).val / 5000, ht⟩
  refine ⟨⟨(i 0).val / 5000, ht⟩, flush7_2 _, ?_⟩
  rw [mem_blk]
  intro a
  match a with
  | ⟨0, _⟩ =>
    show win7_2.index ⟨(i 0).val / 5000, ht⟩ (0 : Fin 2) * 5000 ≤ (i 0).val
      ∧ (i 0).val < win7_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win7_2.index ⟨(i 0).val / 5000, ht⟩ (1 : Fin 2) * 16 ≤ (i 1).val
      ∧ (i 1).val < win7_2.index ⟨(i 0).val / 5000, ht⟩ (1 : Fin 2) * 16 + 16
    rw [e21]
    omega

/-- After the region the output array is `biasRow` of the two arrays. -/
theorem final (c : Dev nD) : (dat7 V c).arrAt 2 cfg7.N = biasRow (V c main_v78) (V c main_v79) :=
  (dat7 V c).arrAt_eq_of_cover 2 _ (fun t _ => flushed V c t) cover

/-- The same array, as a host program spells it: the row spread over the rows, added. -/
abbrev fn : (⟨S100000x16, .f32⟩ : BufTy).Contents (Elt Ideal) → (⟨S1x16, .f32⟩ : BufTy).Contents (Elt Ideal)
    → (⟨S100000x16, .f32⟩ : BufTy).Contents (Elt Ideal) :=
  fun a b => addf (F := Ideal) (φ := .f32) a
    (broadcastInDim S100000x16 ![0, 1] (by decide : S1x16.BroadcastsInDim S100000x16 ![0, 1]) b)

theorem final_host (c : Dev nD) : (dat7 V c).arrAt 2 cfg7.N = fn (V c main_v78) (V c main_v79) :=
  (final V c).trans (host_row_row (V c main_v78) (V c main_v79) (by decide : S1x16.BroadcastsInDim S100000x16 ![0, 1])).symm

/-- The buffers the region leaves are the buffers the host operation `main_v80 = fn main_v78 main_v79` leaves. -/
theorem asOp (W : Dev nD → Valuation τ sig (Elt Ideal)) (c : Dev nD) :
    Pipeline.withArrays spec7 c (W c) (fun w => (dat7 (fun c b => W c b) c).arrAt w cfg7.N)
      = (StableHlo.binary (τ := τ) main_v78 main_v79 main_v80 fn).result (W c) :=
  withArrays_eq_binary_result spec7 launch7.win.arr_inj c (W c) _ fn _ _ _
    (((dat7 (fun c b => W c b) c).arrAt_in 0 rfl _).trans (A_eq7 (fun c b => W c b) c 0))
    (((dat7 (fun c b => W c b) c).arrAt_in 1 rfl _).trans (A_eq7 (fun c b => W c b) c 1))
    (final_host (fun c b => W c b) c)

end Cert.KernelIdeal.Region7

end
-- ==== Proof.Flat.lean ====
/-
  The idealized kernel's buffers at the end of @main, as ONE list of host operations applied to the launch memory.

  Each of the eight regions leaves the buffers that one host operation leaves (the region modules' `asOp`): a product
  `y = dot_general a b`, a rectified bias `y = max (a + row) 0`, or a plain bias `y = a + row`. The seven stretches of
  host operations between them are lists of host operations already. So the fold of the fifteen segments from the
  launch memory is the fold of fifteen lists of host operations, that is, of their concatenation: what any buffer
  holds when @main returns can be read off that one list, operation by operation.
-/
import proofs.«168405_j85899346397_1_alg».proof.Proof.Region0
import proofs.«168405_j85899346397_1_alg».proof.Proof.Region1
import proofs.«168405_j85899346397_1_alg».proof.Proof.Region2
import proofs.«168405_j85899346397_1_alg».proof.Proof.Region3
import proofs.«168405_j85899346397_1_alg».proof.Proof.Region4
import proofs.«168405_j85899346397_1_alg».proof.Proof.Region5
import proofs.«168405_j85899346397_1_alg».proof.Proof.Region6
import proofs.«168405_j85899346397_1_alg».proof.Proof.Region7
import Idealize.ShloMosaic.Lib.StableHlo.RunLoop

set_option maxRecDepth 16384

noncomputable section

namespace Cert.KernelIdeal.Flat

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Region 0 as one host operation. -/
abbrev op0 : HloOp τ sig (Elt Ideal) := StableHlo.binary main_arg0 main_arg2 main_v30 Region0.fn
/-- Region 1 as one host operation. -/
abbrev op1 : HloOp τ sig (Elt Ideal) := StableHlo.binary main_v43 main_v44 main_v45 Region1.fn
/-- Region 2 as one host operation. -/
abbrev op2 : HloOp τ sig (Elt Ideal) := StableHlo.binary main_v45 main_arg4 main_v46 Region2.fn
/-- Region 3 as one host operation. -/
abbrev op3 : HloOp τ sig (Elt Ideal) := StableHlo.binary main_v59 main_v60 main_v61 Region3.fn
/-- Region 4 as one host operation. -/
abbrev op4 : HloOp τ sig (Elt Ideal) := StableHlo.binary main_v61 main_arg6 main_v62 Region4.fn
/-- Region 5 as one host operation. -/
abbrev op5 : HloOp τ sig (Elt Ideal) := StableHlo.binary main_v75 main_v76 main_v77 Region5.fn
/-- Region 6 as one host operation. -/
abbrev op6 : HloOp τ sig (Elt Ideal) := StableHlo.binary main_v77 main_arg8 main_v78 Region6.fn
/-- Region 7 as one host operation. -/
abbrev op7 : HloOp τ sig (Elt Ideal) := StableHlo.binary main_v78 main_v79 main_v80 Region7.fn

/-! Each region's exit contents are its operation's result on its entry contents. -/
theorem W4_eq (c : Dev nD) : W4 m ρ c = op0.result (W3 m ρ c) := by
  unfold W4
  exact Region0.asOp (W3 m ρ) c
theorem W6_eq (c : Dev nD) : W6 m ρ c = op1.result (W5 m ρ c) := by
  unfold W6
  exact Region1.asOp (W5 m ρ) c
theorem W7_eq (c : Dev nD) : W7 m ρ c = op2.result (W6 m ρ c) := by
  unfold W7
  exact Region2.asOp (W6 m ρ) c
theorem W9_eq (c : Dev nD) : W9 m ρ c = op3.result (W8 m ρ c) := by
  unfold W9
  exact Region3.asOp (W8 m ρ) c
theorem W10_eq (c : Dev nD) : W10 m ρ c = op4.result (W9 m ρ c) := by
  unfold W10
  exact Region4.asOp (W9 m ρ) c
theorem W12_eq (c : Dev nD) : W12 m ρ c = op5.result (W11 m ρ c) := by
  unfold W12
  exact Region5.asOp (W11 m ρ) c
theorem W13_eq (c : Dev nD) : W13 m ρ c = op6.result (W12 m ρ c) := by
  unfold W13
  exact Region6.asOp (W12 m ρ) c
theorem W15_eq (c : Dev nD) : W15 m ρ c = op7.result (W14 m ρ c) := by
  unfold W15
  exact Region7.asOp (W14 m ρ) c

/-- @main's fifteen segments, each as a list of host operations. -/
abbrev pieces : List (List (HloOp τ sig (Elt Ideal))) :=
  [hostOps0, hostOps0_1, hostOps0_2, [op0], hostOps1, [op1], [op2], hostOps3, [op3], [op4], hostOps5, [op5], [op6],
    hostOps7, [op7]]

/-- The buffers when @main returns are the fold of the fifteen lists from the launch memory. -/
theorem W15_pieces (c : Dev nD) : W15 m ρ c = afterL pieces (W0 m ρ c) := by
  simp only [pieces, afterL_cons, afterL_nil]
  rw [W15_eq]
  show op7.result (after hostOps7 (W13 m ρ c)) = _
  rw [W13_eq, W12_eq]
  show op7.result (after hostOps7 (op6.result (op5.result (after hostOps5 (W10 m ρ c))))) = _
  rw [W10_eq, W9_eq]
  show op7.result (after hostOps7 (op6.result (op5.result (after hostOps5 (op4.result (op3.result
    (after hostOps3 (W7 m ρ c)))))))) = _
  rw [W7_eq, W6_eq]
  show op7.result (after hostOps7 (op6.result (op5.result (after hostOps5 (op4.result (op3.result
    (after hostOps3 (op2.result (op1.result (after hostOps1 (W4 m ρ c))))))))))) = _
  rw [W4_eq]
  rfl

/-- … that is, of their concatenation. -/
theorem W15_flat (c : Dev nD) : W15 m ρ c = after pieces.flatten (W0 m ρ c) :=
  (W15_pieces m ρ c).trans (afterL_eq_after_flatten pieces (W0 m ρ c))

end Cert.KernelIdeal.Flat

end
-- ==== Proof.Lists.lean ====
/-
  The idealized kernel's one list of host operations, cut into five stretches: the opening stretch that builds the edge
  lists and the edge weights, one stretch per graph-convolution layer (the product region, the gather / scale /
  scatter-add operations, the bias-and-rectify region), and the final dense layer (the product region, the bias row,
  the bias region).
-/
import proofs.«168405_j85899346397_1_alg».proof.Proof.Flat

set_option maxRecDepth 16384

noncomputable section

namespace Cert.KernelIdeal.Lists

open Cert.KernelIdeal Cert.KernelIdeal.Gen Cert.KernelIdeal.Flat Idealize.ShloMosaic Idealize.ShloMosaic.TcCoe Idealize.SL.Sem
open Idealize.ShloMosaic.StableHlo Cert.Lib.BlockBodies

/-- The edge lists, the degrees and the edge weights. -/
def L0 : List (HloOp τ sig (Elt Ideal)) := hostOps0 ++ hostOps0_1 ++ hostOps0_2
/-- The first layer. -/
def L1 : List (HloOp τ sig (Elt Ideal)) := [op0] ++ hostOps1 ++ [op1]
/-- The second layer. -/
def L2 : List (HloOp τ sig (Elt Ideal)) := [op2] ++ hostOps3 ++ [op3]
/-- The third layer. -/
def L3 : List (HloOp τ sig (Elt Ideal)) := [op4] ++ hostOps5 ++ [op5]
/-- The final dense layer. -/
def L4 : List (HloOp τ sig (Elt Ideal)) := [op6] ++ hostOps7 ++ [op7]

/-- The fifteen segments' operations in order are the five stretches in order. -/
theorem pieces_eq : pieces.flatten = L0 ++ (L1 ++ (L2 ++ (L3 ++ L4))) := rfl

end Cert.KernelIdeal.Lists

end
-- ==== Proof.Stage.lean ====
/-
  The network both programs compute, layer by layer, as functions of arrays.

  From the edge array `e : [2, 6400000]`: `Row e` and `Col e` are its two rows, each followed by the node numbers
  `0 … 99999` (one self loop per node), `[6500000]` entries each. `Deg cl` counts, for each node, the entries of `cl`
  equal to it (a scatter-add of ones into zeros); `Dis cl` is `Deg^(-1/2)` where `Deg > 0` (`Mask`) and `0` elsewhere; and
  `Nrm rw cl` is, entry by entry, `Dis[rw e] · Dis[cl e]` (a negative index counted from the end, as in every gather here).
  A layer takes the node features `h`, a weight matrix `w` and a bias `b`: it gathers the rows `(h · w)[rw e, :]`,
  scales row `e` by `Nrm e`, adds the scaled rows into their target nodes `cl e` starting from zero, adds `b` to every
  row and takes the maximum with zero. `hidden` is three such layers (widths 512 → 16 → 32 → 16) and `output` is
  `hidden · wc + bc`. The operations are spelt exactly as the reference program spells them.
-/
import proofs.«168405_j85899346397_1_alg».proof.Proof.Gen.ReferenceIdeal

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- The source node of every edge, then the self loops. -/
def Row (e : (⟨S2x6400000, .i32⟩ : BufTy).Contents (Elt F)) : (⟨S6500000, .i32⟩ : BufTy).Contents (Elt F) :=
  (concatenate S6500000 0 [⟨S6400000, (shapeCast _ (extractStridedSlice S1x6400000 ![0, 0] e slices_S2x6400000_S1x6400000_0_0) shapeCasts_S1x6400000_S6400000)⟩, ⟨S100000, (iotaInDim S100000 32 0)⟩] concatenates_S6400000_S100000_S6500000_d0)

/-- The target node of every edge, then the self loops. -/
def Col (e : (⟨S2x6400000, .i32⟩ : BufTy).Contents (Elt F)) : (⟨S6500000, .i32⟩ : BufTy).Contents (Elt F) :=
  (concatenate S6500000 0 [⟨S6400000, (shapeCast _ (extractStridedSlice S1x6400000 ![1, 0] e slices_S2x6400000_S1x6400000_1_0) shapeCasts_S1x6400000_S6400000)⟩, ⟨S100000, (iotaInDim S100000 32 0)⟩] concatenates_S6400000_S100000_S6500000_d0)

/-- The number of edges into each node. -/
def Deg (cl : (⟨S6500000, .i32⟩ : BufTy).Contents (Elt F)) : (⟨S100000, .f32⟩ : BufTy).Contents (Elt F) :=
  (Host.scatterAdd scatter_S100000_S6500000x1_S6500000_n_0_0_1 (broadcastInDim S100000 ![] bcast_S_S100000 (constant (F := F) S_ .f32 0x00000000#32)) (broadcastInDim S6500000x1 ![0] bcast_S6500000_S6500000x1_0 cl) (broadcastInDim S6500000 ![] bcast_S_S6500000 (constant (F := F) S_ .f32 0x3F800000#32)))

/-- Where the degree is positive. -/
def Mask (cl : (⟨S6500000, .i32⟩ : BufTy).Contents (Elt F)) : (⟨S100000, .i1⟩ : BufTy).Contents (Elt F) :=
  (cmpf .ogt (Deg (F := F) cl) (broadcastInDim S100000 ![] bcast_S_S100000 (constant (F := F) S_ .f32 0x00000000#32)))

/-- `Deg^(-1/2)`, entry by entry. -/
def Rs (cl : (⟨S6500000, .i32⟩ : BufTy).Contents (Elt F)) : (⟨S100000, .f32⟩ : BufTy).Contents (Elt F) :=
  (Host.rsqrt (Deg (F := F) cl))

/-- The scalar zero. -/
def Zero : (⟨S_, .f32⟩ : BufTy).Contents (Elt F) :=
  (constant (F := F) S_ .f32 0x00000000#32)

/-- `rs` where `mask` holds, the scalar `z` elsewhere. -/
def DisOf (mask : (⟨S100000, .i1⟩ : BufTy).Contents (Elt F)) (rs : (⟨S100000, .f32⟩ : BufTy).Contents (Elt F)) (z : (⟨S_, .f32⟩ : BufTy).Contents (Elt F)) : (⟨S100000, .f32⟩ : BufTy).Contents (Elt F) :=
  (select mask rs (broadcastInDim S100000 ![] bcast_S_S100000 (id z)))

/-- `Deg^(-1/2)` where `Deg > 0`, zero elsewhere. -/
def Dis (cl : (⟨S6500000, .i32⟩ : BufTy).Contents (Elt F)) : (⟨S100000, .f32⟩ : BufTy).Contents (Elt F) :=
  DisOf (Mask (F := F) cl) (Rs (F := F) cl) (Zero (F := F))

/-- The weight of edge `e` from a per-node factor `dis`: `dis[rw e] · dis[cl e]`. -/
def NrmOf (dis : (⟨S100000, .f32⟩ : BufTy).Contents (Elt F)) (rw cl : (⟨S6500000, .i32⟩ : BufTy).Contents (Elt F)) : (⟨S6500000, .f32⟩ : BufTy).Contents (Elt F) :=
  (mulf (Host.gather gather_S100000_S6500000x1_S6500000_n_0_n_n_0_1_1 dis (broadcastInDim S6500000x1 ![0] bcast_S6500000_S6500000x1_0 (select (cmpi .slt rw (broadcastInDim S6500000 ![] bcast_S_S6500000 (constantI S_ 32 0#32))) (addi rw (broadcastInDim S6500000 ![] bcast_S_S6500000 (constantI S_ 32 100000#32))) rw))) (Host.gather gather_S100000_S6500000x1_S6500000_n_0_n_n_0_1_1 dis (broadcastInDim S6500000x1 ![0] bcast_S6500000_S6500000x1_0 (select (cmpi .slt cl (broadcastInDim S6500000 ![] bcast_S_S6500000 (constantI S_ 32 0#32))) (addi cl (broadcastInDim S6500000 ![] bcast_S_S6500000 (constantI S_ 32 100000#32))) cl))))

/-- The weight of edge `e`: `Dis[rw e] · Dis[cl e]`. -/
def Nrm (rw cl : (⟨S6500000, .i32⟩ : BufTy).Contents (Elt F)) : (⟨S6500000, .f32⟩ : BufTy).Contents (Elt F) :=
  NrmOf (Dis (F := F) cl) rw cl

/-- The first layer: 512 features to 16. -/
def F1 (h : (⟨S100000x512, .f32⟩ : BufTy).Contents (Elt F)) (w : (⟨S512x16, .f32⟩ : BufTy).Contents (Elt F)) (b : (⟨S16, .f32⟩ : BufTy).Contents (Elt F))
    (rw cl : (⟨S6500000, .i32⟩ : BufTy).Contents (Elt F)) (nrm : (⟨S6500000, .f32⟩ : BufTy).Contents (Elt F)) : (⟨S100000x16, .f32⟩ : BufTy).Contents (Elt F) :=
  (maximumf (addf (Host.scatterAdd scatter_S100000x16_S6500000x1_S6500000x16_1_0_0_1 (broadcastInDim S100000x16 ![] bcast_S_S100000x16 (constant (F := F) S_ .f32 0x00000000#32)) (broadcastInDim S6500000x1 ![0] bcast_S6500000_S6500000x1_0 cl) (mulf (Host.gather gather_S100000x16_S6500000x1_S6500000x16_1_0_n_n_0_1_116 (Host.dotGeneral dot_S100000x512_S512x16_S100000x16_1_0_0_1_n_n none h w) (broadcastInDim S6500000x1 ![0] bcast_S6500000_S6500000x1_0 (select (cmpi .slt rw (broadcastInDim S6500000 ![] bcast_S_S6500000 (constantI S_ 32 0#32))) (addi rw (broadcastInDim S6500000 ![] bcast_S_S6500000 (constantI S_ 32 100000#32))) rw))) (broadcastInDim S6500000x16 ![0, 1] bcast_S6500000x1_S6500000x16_0_1 (broadcastInDim S6500000x1 ![0] bcast_S6500000_S6500000x1_0 nrm)))) (broadcastInDim S100000x16 ![0, 1] bcast_S1x16_S100000x16_0_1 (broadcastInDim S1x16 ![1] bcast_S16_S1x16_1 b))) (broadcastInDim S100000x16 ![] bcast_S_S100000x16 (constant (F := F) S_ .f32 0x00000000#32)))

/-- The second layer: 16 features to 32. -/
def F2 (h : (⟨S100000x16, .f32⟩ : BufTy).Contents (Elt F)) (w : (⟨S16x32, .f32⟩ : BufTy).Contents (Elt F)) (b : (⟨S32, .f32⟩ : BufTy).Contents (Elt F))
    (rw cl : (⟨S6500000, .i32⟩ : BufTy).Contents (Elt F)) (nrm : (⟨S6500000, .f32⟩ : BufTy).Contents (Elt F)) : (⟨S100000x32, .f32⟩ : BufTy).Contents (Elt F) :=
  (maximumf (addf (Host.scatterAdd scatter_S100000x32_S6500000x1_S6500000x32_1_0_0_1 (broadcastInDim S100000x32 ![] bcast_S_S100000x32 (constant (F := F) S_ .f32 0x00000000#32)) (broadcastInDim S6500000x1 ![0] bcast_S6500000_S6500000x1_0 cl) (mulf (Host.gather gather_S100000x32_S6500000x1_S6500000x32_1_0_n_n_0_1_132 (Host.dotGeneral dot_S100000x16_S16x32_S100000x32_1_0_0_1_n_n none h w) (broadcastInDim S6500000x1 ![0] bcast_S6500000_S6500000x1_0 (select (cmpi .slt rw (broadcastInDim S6500000 ![] bcast_S_S6500000 (constantI S_ 32 0#32))) (addi rw (broadcastInDim S6500000 ![] bcast_S_S6500000 (constantI S_ 32 100000#32))) rw))) (broadcastInDim S6500000x32 ![0, 1] bcast_S6500000x1_S6500000x32_0_1 (broadcastInDim S6500000x1 ![0] bcast_S6500000_S6500000x1_0 nrm)))) (broadcastInDim S100000x32 ![0, 1] bcast_S1x32_S100000x32_0_1 (broadcastInDim S1x32 ![1] bcast_S32_S1x32_1 b))) (broadcastInDim S100000x32 ![] bcast_S_S100000x32 (constant (F := F) S_ .f32 0x00000000#32)))

/-- The third layer: 32 features to 16. -/
def F3 (h : (⟨S100000x32, .f32⟩ : BufTy).Contents (Elt F)) (w : (⟨S32x16, .f32⟩ : BufTy).Contents (Elt F)) (b : (⟨S16, .f32⟩ : BufTy).Contents (Elt F))
    (rw cl : (⟨S6500000, .i32⟩ : BufTy).Contents (Elt F)) (nrm : (⟨S6500000, .f32⟩ : BufTy).Contents (Elt F)) : (⟨S100000x16, .f32⟩ : BufTy).Contents (Elt F) :=
  (maximumf (addf (Host.scatterAdd scatter_S100000x16_S6500000x1_S6500000x16_1_0_0_1 (broadcastInDim S100000x16 ![] bcast_S_S100000x16 (constant (F := F) S_ .f32 0x00000000#32)) (broadcastInDim S6500000x1 ![0] bcast_S6500000_S6500000x1_0 cl) (mulf (Host.gather gather_S100000x16_S6500000x1_S6500000x16_1_0_n_n_0_1_116 (Host.dotGeneral dot_S100000x32_S32x16_S100000x16_1_0_0_1_n_n none h w) (broadcastInDim S6500000x1 ![0] bcast_S6500000_S6500000x1_0 (select (cmpi .slt rw (broadcastInDim S6500000 ![] bcast_S_S6500000 (constantI S_ 32 0#32))) (addi rw (broadcastInDim S6500000 ![] bcast_S_S6500000 (constantI S_ 32 100000#32))) rw))) (broadcastInDim S6500000x16 ![0, 1] bcast_S6500000x1_S6500000x16_0_1 (broadcastInDim S6500000x1 ![0] bcast_S6500000_S6500000x1_0 nrm)))) (broadcastInDim S100000x16 ![0, 1] bcast_S1x16_S100000x16_0_1 (broadcastInDim S1x16 ![1] bcast_S16_S1x16_1 b))) (broadcastInDim S100000x16 ![] bcast_S_S100000x16 (constant (F := F) S_ .f32 0x00000000#32)))

/-- The final dense layer: `h · w + b`. -/
def F4 (h : (⟨S100000x16, .f32⟩ : BufTy).Contents (Elt F)) (w : (⟨S16x16, .f32⟩ : BufTy).Contents (Elt F)) (b : (⟨S16, .f32⟩ : BufTy).Contents (Elt F)) : (⟨S100000x16, .f32⟩ : BufTy).Contents (Elt F) :=
  (addf (Host.dotGeneral dot_S100000x16_S16x16_S100000x16_1_0_0_1_n_n none h w) (broadcastInDim S100000x16 ![0, 1] bcast_S1x16_S100000x16_0_1 (broadcastInDim S1x16 ![1] bcast_S16_S1x16_1 b)))

/-- The last hidden layer as a function of the arguments. -/
def hidden (x : (⟨S100000x512, .f32⟩ : BufTy).Contents (Elt F)) (e : (⟨S2x6400000, .i32⟩ : BufTy).Contents (Elt F))
    (w1 : (⟨S512x16, .f32⟩ : BufTy).Contents (Elt F)) (b1 : (⟨S16, .f32⟩ : BufTy).Contents (Elt F)) (w2 : (⟨S16x32, .f32⟩ : BufTy).Contents (Elt F)) (b2 : (⟨S32, .f32⟩ : BufTy).Contents (Elt F))
    (w3 : (⟨S32x16, .f32⟩ : BufTy).Contents (Elt F)) (b3 : (⟨S16, .f32⟩ : BufTy).Contents (Elt F)) : (⟨S100000x16, .f32⟩ : BufTy).Contents (Elt F) :=
  F3 (F2 (F1 x w1 b1 (Row (F := F) e) (Col (F := F) e) (Nrm (F := F) (Row (F := F) e) (Col (F := F) e))) w2 b2
      (Row (F := F) e) (Col (F := F) e) (Nrm (F := F) (Row (F := F) e) (Col (F := F) e))) w3 b3
    (Row (F := F) e) (Col (F := F) e) (Nrm (F := F) (Row (F := F) e) (Col (F := F) e))

/-- The output as a function of the arguments. -/
def output (x : (⟨S100000x512, .f32⟩ : BufTy).Contents (Elt F)) (e : (⟨S2x6400000, .i32⟩ : BufTy).Contents (Elt F))
    (w1 : (⟨S512x16, .f32⟩ : BufTy).Contents (Elt F)) (b1 : (⟨S16, .f32⟩ : BufTy).Contents (Elt F)) (w2 : (⟨S16x32, .f32⟩ : BufTy).Contents (Elt F)) (b2 : (⟨S32, .f32⟩ : BufTy).Contents (Elt F))
    (w3 : (⟨S32x16, .f32⟩ : BufTy).Contents (Elt F)) (b3 : (⟨S16, .f32⟩ : BufTy).Contents (Elt F)) (wc : (⟨S16x16, .f32⟩ : BufTy).Contents (Elt F)) (bc : (⟨S16, .f32⟩ : BufTy).Contents (Elt F)) :
    (⟨S100000x16, .f32⟩ : BufTy).Contents (Elt F) :=
  F4 (hidden x e w1 b1 w2 b2 w3 b3) wc bc

end Cert.ReferenceIdeal.Stage

end
-- ==== Proof.StageK0.lean ====
/-
  The opening stretch on an arbitrary memory, in its three printed pieces. The first piece leaves the source list in
  `main_v3`, the target list in `main_v6`, the mask `Deg > 0` in `main_v12`, `Deg^(-1/2)` in `main_v13` and a zero
  scalar in `main_cst_2`; the second (the `where`) selects, from those three buffers, `Deg^(-1/2)` under the mask and
  zero elsewhere into `main_v14`; the third gathers that factor at both ends of every edge and multiplies, into
  `main_v29`. Together: `Row`, `Col` and `Nrm` of the edge array, and no argument touched.
-/
import proofs.«168405_j85899346397_1_alg».proof.Proof.Lists
import proofs.«168405_j85899346397_1_alg».proof.Proof.Stage

set_option maxRecDepth 16384

noncomputable section

namespace Cert.KernelIdeal.StageK0

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

section Pieces
variable (U : Valuation τ sig (Elt Ideal))

theorem a_row : after hostOps0 U (Proc.devRef .tc main_v3) = Row (F := Ideal) (U (Proc.devRef .tc main_arg1)) := by
  simp only [hostOps0, List.cons_append, List.nil_append, List.append_nil]
  after_results_simp
  rfl

theorem a_col : after hostOps0 U (Proc.devRef .tc main_v6) = Col (F := Ideal) (U (Proc.devRef .tc main_arg1)) := by
  simp only [hostOps0, List.cons_append, List.nil_append, List.append_nil]
  after_results_simp
  rfl

theorem a_mask : after hostOps0 U (Proc.devRef .tc main_v12) = Mask (F := Ideal) (Col (F := Ideal) (U (Proc.devRef .tc main_arg1))) := by
  simp only [hostOps0, List.cons_append, List.nil_append, List.append_nil]
  after_results_simp
  rfl

theorem a_rs : after hostOps0 U (Proc.devRef .tc main_v13) = Rs (F := Ideal) (Col (F := Ideal) (U (Proc.devRef .tc main_arg1))) := by
  simp only [hostOps0, List.cons_append, List.nil_append, List.append_nil]
  after_results_simp
  rfl

theorem a_zero : after hostOps0 U (Proc.devRef .tc main_cst_2) = Zero (F := Ideal) := by
  simp only [hostOps0, List.cons_append, List.nil_append, List.append_nil]
  after_results_simp
  rfl

theorem b_dis : after hostOps0_1 U (Proc.devRef .tc main_v14) = DisOf (F := Ideal) (U (Proc.devRef .tc main_v12)) (U (Proc.devRef .tc main_v13)) (U (Proc.devRef .tc main_cst_2)) := by
  simp only [hostOps0_1, List.cons_append, List.nil_append, List.append_nil]
  after_results_simp
  rfl

theorem b_keep_v3 : after hostOps0_1 U (Proc.devRef .tc main_v3) = U (Proc.devRef .tc main_v3) := by
  simp only [hostOps0_1, List.cons_append, List.nil_append, List.append_nil]
  after_results_simp

theorem b_keep_v6 : after hostOps0_1 U (Proc.devRef .tc main_v6) = U (Proc.devRef .tc main_v6) := by
  simp only [hostOps0_1, List.cons_append, List.nil_append, List.append_nil]
  after_results_simp

theorem c_nrm : after hostOps0_2 U (Proc.devRef .tc main_v29) = NrmOf (F := Ideal) (U (Proc.devRef .tc main_v14)) (U (Proc.devRef .tc main_v3)) (U (Proc.devRef .tc main_v6)) := by
  simp only [hostOps0_2, List.cons_append, List.nil_append, List.append_nil]
  after_results_simp
  rfl

theorem c_keep_v3 : after hostOps0_2 U (Proc.devRef .tc main_v3) = U (Proc.devRef .tc main_v3) := by
  simp only [hostOps0_2, List.cons_append, List.nil_append, List.append_nil]
  after_results_simp

theorem c_keep_v6 : after hostOps0_2 U (Proc.devRef .tc main_v6) = U (Proc.devRef .tc main_v6) := by
  simp only [hostOps0_2, List.cons_append, List.nil_append, List.append_nil]
  after_results_simp

end Pieces

variable (V : Valuation τ sig (Elt Ideal))

theorem row : after L0 V (Proc.devRef .tc main_v3) = Row (F := Ideal) (V (Proc.devRef .tc main_arg1)) := by
  unfold L0
  rw [after_append, after_append, c_keep_v3, b_keep_v3, a_row]

theorem col : after L0 V (Proc.devRef .tc main_v6) = Col (F := Ideal) (V (Proc.devRef .tc main_arg1)) := by
  unfold L0
  rw [after_append, after_append, c_keep_v6, b_keep_v6, a_col]

theorem nrm : after L0 V (Proc.devRef .tc main_v29)
    = Nrm (F := Ideal) (Row (F := Ideal) (V (Proc.devRef .tc main_arg1))) (Col (F := Ideal) (V (Proc.devRef .tc main_arg1))) := by
  unfold L0
  rw [after_append, after_append, c_nrm, b_dis, b_keep_v3, b_keep_v6, a_mask, a_rs, a_zero, a_row, a_col]
  rfl

theorem keep_main_arg0 : after L0 V (Proc.devRef .tc main_arg0) = V (Proc.devRef .tc main_arg0) := by
  unfold L0
  simp only [hostOps0, hostOps0_1, hostOps0_2, List.cons_append, List.nil_append, List.append_nil]
  after_results_simp

theorem keep_main_arg2 : after L0 V (Proc.devRef .tc main_arg2) = V (Proc.devRef .tc main_arg2) := by
  unfold L0
  simp only [hostOps0, hostOps0_1, hostOps0_2, List.cons_append, List.nil_append, List.append_nil]
  after_results_simp

theorem keep_main_arg3 : after L0 V (Proc.devRef .tc main_arg3) = V (Proc.devRef .tc main_arg3) := by
  unfold L0
  simp only [hostOps0, hostOps0_1, hostOps0_2, List.cons_append, List.nil_append, List.append_nil]
  after_results_simp

theorem keep_main_arg4 : after L0 V (Proc.devRef .tc main_arg4) = V (Proc.devRef .tc main_arg4) := by
  unfold L0
  simp only [hostOps0, hostOps0_1, hostOps0_2, List.cons_append, List.nil_append, List.append_nil]
  after_results_simp

theorem keep_main_arg5 : after L0 V (Proc.devRef .tc main_arg5) = V (Proc.devRef .tc main_arg5) := by
  unfold L0
  simp only [hostOps0, hostOps0_1, hostOps0_2, List.cons_append, List.nil_append, List.append_nil]
  after_results_simp

theorem keep_main_arg6 : after L0 V (Proc.devRef .tc main_arg6) = V (Proc.devRef .tc main_arg6) := by
  unfold L0
  simp only [hostOps0, hostOps0_1, hostOps0_2, List.cons_append, List.nil_append, List.append_nil]
  after_results_simp

theorem keep_main_arg7 : after L0 V (Proc.devRef .tc main_arg7) = V (Proc.devRef .tc main_arg7) := by
  unfold L0
  simp only [hostOps0, hostOps0_1, hostOps0_2, List.cons_append, List.nil_append, List.append_nil]
  after_results_simp

theorem keep_main_arg8 : after L0 V (Proc.devRef .tc main_arg8) = V (Proc.devRef .tc main_arg8) := by
  unfold L0
  simp only [hostOps0, hostOps0_1, hostOps0_2, List.cons_append, List.nil_append, List.append_nil]
  after_results_simp

theorem keep_main_arg9 : after L0 V (Proc.devRef .tc main_arg9) = V (Proc.devRef .tc main_arg9) := by
  unfold L0
  simp only [hostOps0, hostOps0_1, hostOps0_2, List.cons_append, List.nil_append, List.append_nil]
  after_results_simp

end Cert.KernelIdeal.StageK0

end
-- ==== Proof.StageK1.lean ====
/-
  The first layer's stretch on an arbitrary memory: the product region, the gather / scale / scatter-add operations and
  the bias-and-rectify region leave in `main_v45` the layer `F1` of the features, its weights and bias and the edge
  lists and weights found in `main_v3`, `main_v6`, `main_v29`; those three buffers and the later arguments are untouched.
-/
import proofs.«168405_j85899346397_1_alg».proof.Proof.Lists
import proofs.«168405_j85899346397_1_alg».proof.Proof.Stage

set_option maxRecDepth 16384

noncomputable section

namespace Cert.KernelIdeal.StageK1

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

variable (V : Valuation τ sig (Elt Ideal))

set_option maxHeartbeats 4000000 in
theorem out : after L1 V (Proc.devRef .tc main_v45)
    = F1 (F := Ideal) (V (Proc.devRef .tc main_arg0)) (V (Proc.devRef .tc main_arg2)) (V (Proc.devRef .tc main_arg3)) (V (Proc.devRef .tc main_v3)) (V (Proc.devRef .tc main_v6)) (V (Proc.devRef .tc main_v29)) := by
  unfold L1
  simp only [hostOps1, op0, op1, List.cons_append, List.nil_append, List.append_nil]
  after_results_simp
  unfold F1
  rw [← recast_eq_spread (V (Proc.devRef .tc main_arg3))
    (by decide : (⟨1, ![16]⟩ : Shape).ShapeCasts ⟨2, ![1, 16]⟩) (by decide : (⟨1, ![16]⟩ : Shape).BroadcastsInDim ⟨2, ![1, 16]⟩ ![1])]
  rfl

theorem keep_main_v3 : after L1 V (Proc.devRef .tc main_v3) = V (Proc.devRef .tc main_v3) := by
  unfold L1
  simp only [hostOps1, op0, op1, List.cons_append, List.nil_append, List.append_nil]
  after_results_simp

theorem keep_main_v6 : after L1 V (Proc.devRef .tc main_v6) = V (Proc.devRef .tc main_v6) := by
  unfold L1
  simp only [hostOps1, op0, op1, List.cons_append, List.nil_append, List.append_nil]
  after_results_simp

theorem keep_main_v29 : after L1 V (Proc.devRef .tc main_v29) = V (Proc.devRef .tc main_v29) := by
  unfold L1
  simp only [hostOps1, op0, op1, List.cons_append, List.nil_append, List.append_nil]
  after_results_simp

theorem keep_main_arg4 : after L1 V (Proc.devRef .tc main_arg4) = V (Proc.devRef .tc main_arg4) := by
  unfold L1
  simp only [hostOps1, op0, op1, List.cons_append, List.nil_append, List.append_nil]
  after_results_simp

theorem keep_main_arg5 : after L1 V (Proc.devRef .tc main_arg5) = V (Proc.devRef .tc main_arg5) := by
  unfold L1
  simp only [hostOps1, op0, op1, List.cons_append, List.nil_append, List.append_nil]
  after_results_simp

theorem keep_main_arg6 : after L1 V (Proc.devRef .tc main_arg6) = V (Proc.devRef .tc main_arg6) := by
  unfold L1
  simp only [hostOps1, op0, op1, List.cons_append, List.nil_append, List.append_nil]
  after_results_simp

theorem keep_main_arg7 : after L1 V (Proc.devRef .tc main_arg7) = V (Proc.devRef .tc main_arg7) := by
  unfold L1
  simp only [hostOps1, op0, op1, List.cons_append, List.nil_append, List.append_nil]
  after_results_simp

theorem keep_main_arg8 : after L1 V (Proc.devRef .tc main_arg8) = V (Proc.devRef .tc main_arg8) := by
  unfold L1
  simp only [hostOps1, op0, op1, List.cons_append, List.nil_append, List.append_nil]
  after_results_simp

theorem keep_main_arg9 : after L1 V (Proc.devRef .tc main_arg9) = V (Proc.devRef .tc main_arg9) := by
  unfold L1
  simp only [hostOps1, op0, op1, List.cons_append, List.nil_append, List.append_nil]
  after_results_simp

end Cert.KernelIdeal.StageK1

end
-- ==== Proof.StageK2.lean ====
/-
  The second layer's stretch on an arbitrary memory: it leaves in `main_v61` the layer `F2` of the first hidden array
  `main_v45`, its weights and bias and the edge lists and weights; those and the later arguments are untouched.
-/
import proofs.«168405_j85899346397_1_alg».proof.Proof.Lists
import proofs.«168405_j85899346397_1_alg».proof.Proof.Stage

set_option maxRecDepth 16384

noncomputable section

namespace Cert.KernelIdeal.StageK2

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

variable (V : Valuation τ sig (Elt Ideal))

set_option maxHeartbeats 4000000 in
theorem out : after L2 V (Proc.devRef .tc main_v61)
    = F2 (F := Ideal) (V (Proc.devRef .tc main_v45)) (V (Proc.devRef .tc main_arg4)) (V (Proc.devRef .tc main_arg5)) (V (Proc.devRef .tc main_v3)) (V (Proc.devRef .tc main_v6)) (V (Proc.devRef .tc main_v29)) := by
  unfold L2
  simp only [hostOps3, op2, op3, List.cons_append, List.nil_append, List.append_nil]
  after_results_simp
  unfold F2
  rw [← recast_eq_spread (V (Proc.devRef .tc main_arg5))
    (by decide : (⟨1, ![32]⟩ : Shape).ShapeCasts ⟨2, ![1, 32]⟩) (by decide : (⟨1, ![32]⟩ : Shape).BroadcastsInDim ⟨2, ![1, 32]⟩ ![1])]
  rfl

theorem keep_main_v3 : after L2 V (Proc.devRef .tc main_v3) = V (Proc.devRef .tc main_v3) := by
  unfold L2
  simp only [hostOps3, op2, op3, List.cons_append, List.nil_append, List.append_nil]
  after_results_simp

theorem keep_main_v6 : after L2 V (Proc.devRef .tc main_v6) = V (Proc.devRef .tc main_v6) := by
  unfold L2
  simp only [hostOps3, op2, op3, List.cons_append, List.nil_append, List.append_nil]
  after_results_simp

theorem keep_main_v29 : after L2 V (Proc.devRef .tc main_v29) = V (Proc.devRef .tc main_v29) := by
  unfold L2
  simp only [hostOps3, op2, op3, List.cons_append, List.nil_append, List.append_nil]
  after_results_simp

theorem keep_main_arg6 : after L2 V (Proc.devRef .tc main_arg6) = V (Proc.devRef .tc main_arg6) := by
  unfold L2
  simp only [hostOps3, op2, op3, List.cons_append, List.nil_append, List.append_nil]
  after_results_simp

theorem keep_main_arg7 : after L2 V (Proc.devRef .tc main_arg7) = V (Proc.devRef .tc main_arg7) := by
  unfold L2
  simp only [hostOps3, op2, op3, List.cons_append, List.nil_append, List.append_nil]
  after_results_simp

theorem keep_main_arg8 : after L2 V (Proc.devRef .tc main_arg8) = V (Proc.devRef .tc main_arg8) := by
  unfold L2
  simp only [hostOps3, op2, op3, List.cons_append, List.nil_append, List.append_nil]
  after_results_simp

theorem keep_main_arg9 : after L2 V (Proc.devRef .tc main_arg9) = V (Proc.devRef .tc main_arg9) := by
  unfold L2
  simp only [hostOps3, op2, op3, List.cons_append, List.nil_append, List.append_nil]
  after_results_simp

end Cert.KernelIdeal.StageK2

end
-- ==== Proof.StageK3.lean ====
/-
  The third layer's stretch on an arbitrary memory: it leaves in `main_v77` the layer `F3` of the second hidden array
  `main_v61`, its weights and bias and the edge lists and weights; the last two arguments are untouched.
-/
import proofs.«168405_j85899346397_1_alg».proof.Proof.Lists
import proofs.«168405_j85899346397_1_alg».proof.Proof.Stage

set_option maxRecDepth 16384

noncomputable section

namespace Cert.KernelIdeal.StageK3

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

variable (V : Valuation τ sig (Elt Ideal))

set_option maxHeartbeats 4000000 in
theorem out : after L3 V (Proc.devRef .tc main_v77)
    = F3 (F := Ideal) (V (Proc.devRef .tc main_v61)) (V (Proc.devRef .tc main_arg6)) (V (Proc.devRef .tc main_arg7)) (V (Proc.devRef .tc main_v3)) (V (Proc.devRef .tc main_v6)) (V (Proc.devRef .tc main_v29)) := by
  unfold L3
  simp only [hostOps5, op4, op5, List.cons_append, List.nil_append, List.append_nil]
  after_results_simp
  unfold F3
  rw [← recast_eq_spread (V (Proc.devRef .tc main_arg7))
    (by decide : (⟨1, ![16]⟩ : Shape).ShapeCasts ⟨2, ![1, 16]⟩) (by decide : (⟨1, ![16]⟩ : Shape).BroadcastsInDim ⟨2, ![1, 16]⟩ ![1])]
  rfl

theorem keep_main_arg8 : after L3 V (Proc.devRef .tc main_arg8) = V (Proc.devRef .tc main_arg8) := by
  unfold L3
  simp only [hostOps5, op4, op5, List.cons_append, List.nil_append, List.append_nil]
  after_results_simp

theorem keep_main_arg9 : after L3 V (Proc.devRef .tc main_arg9) = V (Proc.devRef .tc main_arg9) := by
  unfold L3
  simp only [hostOps5, op4, op5, List.cons_append, List.nil_append, List.append_nil]
  after_results_simp

end Cert.KernelIdeal.StageK3

end
-- ==== Proof.StageK4.lean ====
/-
  The final stretch on an arbitrary memory: the product region, the bias row and the bias region leave in `main_v80`
  the dense layer `F4` of the last hidden array `main_v77`, which is itself untouched.
-/
import proofs.«168405_j85899346397_1_alg».proof.Proof.Lists
import proofs.«168405_j85899346397_1_alg».proof.Proof.Stage

set_option maxRecDepth 16384

noncomputable section

namespace Cert.KernelIdeal.StageK4

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

variable (V : Valuation τ sig (Elt Ideal))

theorem out : after L4 V (Proc.devRef .tc main_v80)
    = F4 (F := Ideal) (V (Proc.devRef .tc main_v77)) (V (Proc.devRef .tc main_arg8)) (V (Proc.devRef .tc main_arg9)) := by
  unfold L4
  simp only [hostOps7, op6, op7, List.cons_append, List.nil_append, List.append_nil]
  after_results_simp
  unfold F4
  rw [← recast_eq_spread (V (Proc.devRef .tc main_arg9))
    (by decide : (⟨1, ![16]⟩ : Shape).ShapeCasts ⟨2, ![1, 16]⟩) (by decide : (⟨1, ![16]⟩ : Shape).BroadcastsInDim ⟨2, ![1, 16]⟩ ![1])]
  rfl

theorem keep_main_v77 : after L4 V (Proc.devRef .tc main_v77) = V (Proc.devRef .tc main_v77) := by
  unfold L4
  simp only [hostOps7, op6, op7, List.cons_append, List.nil_append, List.append_nil]
  after_results_simp

end Cert.KernelIdeal.StageK4

end
-- ==== Proof.Compose.lean ====
/-
  The idealized kernel's two results as functions of its arguments.

  The buffers when @main returns are the five stretches applied in order to the launch memory. Reading the output
  buffer back through them: the final stretch gives the dense layer of the last hidden array; that array is what the
  third layer's stretch left, the third layer of what the second left, and so on down to the features; the edge lists
  and weights every layer reads are what the opening stretch left, untouched since, and every argument is read as
  launched. So the kernel ends with `output` of its arguments in `main_v80` and `hidden` of them in `main_v77`.
-/
import proofs.«168405_j85899346397_1_alg».proof.Proof.StageK0
import proofs.«168405_j85899346397_1_alg».proof.Proof.StageK1
import proofs.«168405_j85899346397_1_alg».proof.Proof.StageK2
import proofs.«168405_j85899346397_1_alg».proof.Proof.StageK3
import proofs.«168405_j85899346397_1_alg».proof.Proof.StageK4

set_option maxRecDepth 16384

noncomputable section

namespace Cert.KernelIdeal.Compose

open Cert.KernelIdeal Cert.KernelIdeal.Gen Cert.KernelIdeal.Flat Idealize.ShloMosaic Idealize.ShloMosaic.TcCoe Idealize.SL.Sem
open Idealize.ShloMosaic.StableHlo Cert.Lib.BlockBodies

open Cert.KernelIdeal.Lists Cert.ReferenceIdeal.Stage

variable (m : (ℓ : Loc nD τ sig) → Buf (Elt Ideal) ℓ) (ρ : Dev nD → PrngReg)

/-- The buffers when @main returns: the five stretches in order from the launch memory. -/
theorem W15_stages (c : Dev nD) :
    W15 m ρ c = after L4 (after L3 (after L2 (after L1 (after L0 (W0 m ρ c))))) := by
  rw [W15_flat, pieces_eq, after_append, after_append, after_append, after_append]

/-- The last hidden layer, as the third stretch leaves it. -/
theorem hidden_stage (c : Dev nD) :
    after L3 (after L2 (after L1 (after L0 (W0 m ρ c)))) (Proc.devRef .tc main_v77)
      = hidden (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7)) := by
  rw [StageK3.out, StageK2.out, StageK1.out,
    StageK2.keep_main_v3, StageK2.keep_main_v6, StageK2.keep_main_v29, StageK2.keep_main_arg6, StageK2.keep_main_arg7,
    StageK1.keep_main_v3, StageK1.keep_main_v6, StageK1.keep_main_v29, StageK1.keep_main_arg4, StageK1.keep_main_arg5,
    StageK1.keep_main_arg6, StageK1.keep_main_arg7,
    StageK0.row, StageK0.col, StageK0.nrm, StageK0.keep_main_arg0, StageK0.keep_main_arg2, StageK0.keep_main_arg3,
    StageK0.keep_main_arg4, StageK0.keep_main_arg5, StageK0.keep_main_arg6, StageK0.keep_main_arg7]
  rfl

theorem hidden_val (c : Dev nD) :
    W15 m ρ c (Proc.devRef .tc main_v77)
      = hidden (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7)) := by
  rw [W15_stages, StageK4.keep_main_v77]
  exact hidden_stage m ρ c

theorem output_val (c : Dev nD) :
    W15 m ρ c (Proc.devRef .tc main_v80)
      = output (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9)) := by
  rw [W15_stages, StageK4.out, hidden_stage,
    StageK3.keep_main_arg8, StageK3.keep_main_arg9, StageK2.keep_main_arg8, StageK2.keep_main_arg9,
    StageK1.keep_main_arg8, StageK1.keep_main_arg9, StageK0.keep_main_arg8, StageK0.keep_main_arg9]
  rfl

end Cert.KernelIdeal.Compose

end
-- ==== Proof.StageRef.lean ====
/-
  The reference's two results are `output` and `hidden` of its argument arrays: its run's composed terms are the
  layers of `Stage` written out in full, the edge lists and the edge weights repeated at every use.
-/
import proofs.«168405_j85899346397_1_alg».proof.Proof.Stage
import proofs.«168405_j85899346397_1_alg».proof.Proof.ReferenceRun

set_option maxRecDepth 16384

noncomputable section

namespace Cert.ReferenceIdeal.StageRef

open Cert.ReferenceIdeal Cert.ReferenceIdeal.Gen Cert.ReferenceIdeal.Stage Idealize.ShloMosaic Idealize.ShloMosaic.TcCoe Idealize.SL.Sem

variable {F : FTy → Type} [FloatOps F]

set_option maxHeartbeats 4000000 in
theorem hidden_term (m : (ℓ : Loc nD τ sig) → Buf (Elt F) ℓ) (c : Dev nD) :
    Cert.ReferenceIdeal.ValueP.res_main_v83 m c
      = hidden (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7)) := rfl

set_option maxHeartbeats 4000000 in
theorem output_term (m : (ℓ : Loc nD τ sig) → Buf (Elt F) ℓ) (c : Dev nD) :
    Cert.ReferenceIdeal.ValueP.res_main_v87 m c
      = output (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) := rfl

end Cert.ReferenceIdeal.StageRef

end
-- ==== Proof.Bridge.lean ====
/-
  The two programs' results are one function of the arguments.

  The reference's output and last hidden layer are `output` and `hidden` of its argument arrays (StageRef), and the
  kernel's `main_v80` and `main_v77` end at `output` and `hidden` of its own (Compose): the same two functions. From
  memories that agree on the ten arguments the results are therefore equal. The functions are compositions of the
  same operations on both sides; no law of the extended reals is used, so the inputs' finiteness is not needed.
-/
import proofs.«168405_j85899346397_1_alg».proof.Proof.Compose
import proofs.«168405_j85899346397_1_alg».proof.Proof.StageRef

set_option maxRecDepth 16384

noncomputable section

namespace Cert.Proof.Bridge

open Idealize.ShloMosaic Idealize.ShloMosaic.TcCoe Idealize.SL.Sem
open Cert.KernelIdeal.Gen

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The reference's last hidden layer, from a memory agreeing with the kernel's on the arguments, is what the
    kernel leaves in `main_v77`. -/
theorem hidden_eq (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v83 (F := Ideal) m' c
      = W15 m ρ c (Proc.devRef .tc Cert.KernelIdeal.main_v77) := by
  obtain ⟨h0, h1, h2, h3, h4, h5, h6, h7, h8, h9⟩ := h
  rw [Cert.ReferenceIdeal.StageRef.hidden_term, Cert.KernelIdeal.Compose.hidden_val, h0, h1, h2, h3, h4, h5, h6, h7]

/-- The reference's output is what the kernel leaves in `main_v80`. -/
theorem output_eq (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v87 (F := Ideal) m' c
      = W15 m ρ c (Proc.devRef .tc Cert.KernelIdeal.main_v80) := by
  obtain ⟨h0, h1, h2, h3, h4, h5, h6, h7, h8, h9⟩ := h
  rw [Cert.ReferenceIdeal.StageRef.output_term, Cert.KernelIdeal.Compose.output_val, h0, h1, h2, h3, h4, h5, h6, h7, h8, h9]

end Cert.Proof.Bridge

end
-- ==== Proof.lean ====
/-
  Both programs compute a three-layer graph convolutional network and a final dense layer on 100000 nodes and
  6400000 edges plus one self loop per node. With `deg` the number of edges into each node and `dis = deg^(-1/2)`
  where `deg > 0`, `0` elsewhere, a layer is `relu (Â (h W) + b)`, where `Â` weights edge `e` by
  `dis[row e] · dis[col e]` and sums the weighted rows into their target nodes; the output is
  `h₃ Wc + bc`, returned together with `h₃`. The reference does everything with host operations. The kernel keeps the
  host operations for the edge lists, the degrees, the weights, the gathers and the scatter-adds, and computes each
  dense product `h W` and each bias step in a pipelined region, 5000 rows of the 100000 at a time (20 grid points), the
  products on the matrix unit with bf16 operands and a zero accumulator.

  At the exact instance a change of float format is the identity and a block of rows of a product is the product of
  the block of rows, so each region leaves in its output array exactly what the corresponding host operation leaves
  (Region0 … Region7); the kernel's buffers at the end of @main are then those of one list of host operations
  (Flat), its run ends with its two results at what that list leaves (KernelRun), and those are the reference's
  composed terms (Bridge). The frames are the generated ones; the reference's is its run with the results dropped.
  The idealization rewrote nothing, so there is nothing to preserve.
-/
import proofs.«168405_j85899346397_1_alg».proof.Defs
import proofs.«168405_j85899346397_1_alg».proof.Proof.Gen.Kernel
import proofs.«168405_j85899346397_1_alg».proof.Proof.Gen.Kernel.Skeleton
import proofs.«168405_j85899346397_1_alg».proof.Proof.Gen.Kernel.Launch
import proofs.«168405_j85899346397_1_alg».proof.Proof.Gen.Kernel.Points
import proofs.«168405_j85899346397_1_alg».proof.Proof.Gen.Kernel.Frame
import proofs.«168405_j85899346397_1_alg».proof.Proof.Gen.KernelIdeal
import proofs.«168405_j85899346397_1_alg».proof.Proof.Gen.KernelIdeal.Skeleton
import proofs.«168405_j85899346397_1_alg».proof.Proof.Gen.KernelIdeal.Launch
import proofs.«168405_j85899346397_1_alg».proof.Proof.Gen.KernelIdeal.Points
import proofs.«168405_j85899346397_1_alg».proof.Proof.Gen.KernelIdeal.Frame
import proofs.«168405_j85899346397_1_alg».proof.Proof.Gen.ReferenceIdeal
import proofs.«168405_j85899346397_1_alg».proof.Proof.Gen.Pre_finite_inputs
import proofs.«168405_j85899346397_1_alg».proof.Proof.ReferenceRun
import proofs.«168405_j85899346397_1_alg».proof.Proof.KernelRun
import proofs.«168405_j85899346397_1_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- The idealization rewrote no operation. -/
theorem preserves : Cert.preserves_Kernel_KernelIdeal := trivial

/-- From memories agreeing on the arguments both programs run, and end with the same output and the same last hidden
    layer: the kernel's are what its one list of host operations leaves in `main_v80` and `main_v77`, and the
    reference's composed terms are those (`Bridge.output_eq`, `Bridge.hidden_eq`). -/
theorem algebraic : Cert.algebraic_KernelIdeal_ReferenceIdeal := by
  intro m ρ m' ρ' _ hagree
  refine ⟨fun c => Cert.KernelIdeal.Gen.W15 m ρ c (Proc.devRef .tc Cert.KernelIdeal.main_v80),
    fun c => Cert.KernelIdeal.Gen.W15 m ρ c (Proc.devRef .tc Cert.KernelIdeal.main_v77),
    Cert.KernelIdeal.Run.run (F := Ideal) m ρ, ?_⟩
  exact (θ_run Cert.ReferenceIdeal.defs _ _).mono
    (fun _ h c => ⟨(h c).1.trans (Bridge.output_eq m ρ m' c (hagree c)),
      (h c).2.1.trans (Bridge.hidden_eq m ρ m' c (hagree c)), (h c).2.2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
